-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x3 : Shape := ⟨2, ![128, 3]⟩
abbrev S3 : Shape := ⟨1, ![3]⟩
abbrev S100000x3 : Shape := ⟨2, ![100000, 3]⟩
abbrev S2x1600000 : Shape := ⟨2, ![2, 1600000]⟩
abbrev S50000 : Shape := ⟨1, ![50000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_
  bcast_S_S100000x3 : S_.BroadcastsInDim S100000x3 (![] : Fin 0 → Fin S100000x3.rank)
  reducesTo_S100000x3_S_d0_1 : S100000x3.ReducesTo [0, 1] S_

variable [Facts]

def fn_part1 {F : FTy → Type} [FloatOps F] (main_v13 : IVec S_ 1) (main_v16 : IVec S100000x3 1) : IVec S_ 1 :=
  let main_c_5 : IVec S_ 1 := constantI S_ 1 1#1
  let main_v17 : IVec S_ 1 := (fun x v => Host.reduce IntOp.andi x v reducesTo_S100000x3_S_d0_1 h_S_) main_v16 main_c_5
  let main_v18 : IVec S_ 1 := andi main_v13 main_v17
  main_v18

def fn {F : FTy → Type} [FloatOps F] (main_arg0 : FVec F S100000x128 .f32) (main_arg1 : FVec F S128x3 .f32) (main_arg2 : FVec F S3 .f32) (main_arg3 : FVec F S100000x3 .f32) (main_arg4 : IVec S2x1600000 32) (main_arg5 : IVec S50000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x3 .f32 := Host.absf main_arg1
  let main_cst_0 : FVec F S_ .f32 := constant S_ .f32 0x7F800000#32
  let main_v5 : FVec F S128x3 .f32 := broadcastInDim S128x3 ![] bcast_S_S128x3 main_cst_0
  let main_v6 : IVec S128x3 1 := cmpf .olt main_v4 main_v5
  let main_c_1 : IVec S_ 1 := constantI S_ 1 1#1
  let main_v7 : IVec S_ 1 := (fun x v => Host.reduce IntOp.andi x v reducesTo_S128x3_S_d0_1 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S100000x3 .f32 := Host.absf main_arg3
  let main_cst_4 : FVec F S_ .f32 := constant S_ .f32 0x7F800000#32
  let main_v15 : FVec F S100000x3 .f32 := broadcastInDim S100000x3 ![] bcast_S_S100000x3 main_cst_4
  let main_v16 : IVec S100000x3 1 := cmpf .olt main_v14 main_v15
  fn_part1 (F := F) main_v13 main_v16
-- ==== Kernel.lean ====
abbrev S100000x128 : Shape := ⟨2, ![100000, 128]⟩
abbrev S128x3 : Shape := ⟨2, ![128, 3]⟩
abbrev S3 : Shape := ⟨1, ![3]⟩
abbrev S100000x3 : Shape := ⟨2, ![100000, 3]⟩
abbrev S2x1600000 : Shape := ⟨2, ![2, 1600000]⟩
abbrev S50000 : Shape := ⟨1, ![50000]⟩
abbrev S100000x1 : Shape := ⟨2, ![100000, 1]⟩
abbrev S5000x128 : Shape := ⟨2, ![5000, 128]⟩
abbrev S5000x3 : Shape := ⟨2, ![5000, 3]⟩
abbrev S5000x1 : Shape := ⟨2, ![5000, 1]⟩
abbrev S1x3 : Shape := ⟨2, ![1, 3]⟩
abbrev S5000 : Shape := ⟨1, ![5000]⟩
abbrev S100000 : Shape := ⟨1, ![100000]⟩
abbrev S_ : Shape := ⟨0, ![]⟩
abbrev S50000x1 : Shape := ⟨2, ![50000, 1]⟩
abbrev S1x1600000 : Shape := ⟨2, ![1, 1600000]⟩
abbrev S1600000 : Shape := ⟨1, ![1600000]⟩
abbrev S1600000x1 : Shape := ⟨2, ![1600000, 1]⟩
abbrev S1600000x2 : Shape := ⟨2, ![1600000, 2]⟩
abbrev S50001x2 : Shape := ⟨2, ![50001, 2]⟩
abbrev S50000x2 : Shape := ⟨2, ![50000, 2]⟩

abbrev nBuf : Space → Nat
  | .hbm => 69
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S128x3, .f32⟩
  | .hbm, ⟨2, _⟩ => ⟨S3, .f32⟩
  | .hbm, ⟨3, _⟩ => ⟨S100000x3, .f32⟩
  | .hbm, ⟨4, _⟩ => ⟨S2x1600000, .i32⟩
  | .hbm, ⟨5, _⟩ => ⟨S50000, .i32⟩
  | .hbm, ⟨6, _⟩ => ⟨S100000x1, .f32⟩
  | .hbm, ⟨7, _⟩ => ⟨S100000, .f32⟩
  | .hbm, ⟨8, _⟩ => ⟨S_, .i32⟩
  | .hbm, ⟨9, _⟩ => ⟨S100000, .i32⟩
  | .hbm, ⟨10, _⟩ => ⟨S50000, .i32⟩
  | .hbm, ⟨11, _⟩ => ⟨S_, .i32⟩
  | .hbm, ⟨12, _⟩ => ⟨S50000, .i32⟩
  | .hbm, ⟨13, _⟩ => ⟨S50000, .i1⟩
  | .hbm, ⟨14, _⟩ => ⟨S_, .i32⟩
  | .hbm, ⟨15, _⟩ => ⟨S50000, .i32⟩
  | .hbm, ⟨16, _⟩ => ⟨S50000, .i32⟩
  | .hbm, ⟨17, _⟩ => ⟨S50000, .i32⟩
  | .hbm, ⟨18, _⟩ => ⟨S50000x1, .i32⟩
  | .hbm, ⟨19, _⟩ => ⟨S100000, .i32⟩
  | .hbm, ⟨20, _⟩ => ⟨S1x1600000, .i32⟩
  | .hbm, ⟨21, _⟩ => ⟨S1600000, .i32⟩
  | .hbm, ⟨22, _⟩ => ⟨S1x1600000, .i32⟩
  | .hbm, ⟨23, _⟩ => ⟨S1600000, .i32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .i32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S_, .f32⟩
  | .hbm, ⟨46, _⟩ => ⟨S1600000, .f32⟩
  | .hbm, ⟨47, _⟩ => ⟨S1600000, .f32⟩
  | .hbm, ⟨48, _⟩ => ⟨S1600000, .f32⟩
  | .hbm, ⟨49, _⟩ => ⟨S1600000x1, .f32⟩
  | .hbm, ⟨50, _⟩ => ⟨S1600000x1, .f32⟩
  | .hbm, ⟨51, _⟩ => ⟨S1600000x2, .f32⟩
  | .hbm, ⟨52, _⟩ => ⟨S_, .f32⟩
  | .hbm, ⟨53, _⟩ => ⟨S50001x2, .f32⟩
  | .hbm, ⟨54, _⟩ => ⟨S1600000x1, .i32⟩
  | .hbm, ⟨55, _⟩ => ⟨S50001x2, .f32⟩
  | .hbm, ⟨56, _⟩ => ⟨S50000x2, .f32⟩
  | .hbm, ⟨57, _⟩ => ⟨S50000x1, .f32⟩
  | .hbm, ⟨58, _⟩ => ⟨S50000, .f32⟩
  | .hbm, ⟨59, _⟩ => ⟨S50000x1, .f32⟩
  | .hbm, ⟨60, _⟩ => ⟨S50000, .f32⟩
  | .hbm, ⟨61, _⟩ => ⟨S_, .f32⟩
  | .hbm, ⟨62, _⟩ => ⟨S50000, .f32⟩
  | .hbm, ⟨63, _⟩ => ⟨S50000, .f32⟩
  | .hbm, ⟨64, _⟩ => ⟨S50000, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .local _ .vmem, ⟨0, _⟩ => ⟨S5000x128, .f32⟩
  | .local _ .vmem, ⟨1, _⟩ => ⟨S5000x128, .f32⟩
  | .local _ .vmem, ⟨2, _⟩ => ⟨S128x3, .f32⟩
  | .local _ .vmem, ⟨3, _⟩ => ⟨S3, .f32⟩
  | .local _ .vmem, ⟨4, _⟩ => ⟨S5000x3, .f32⟩
  | .local _ .vmem, ⟨5, _⟩ => ⟨S5000x3, .f32⟩
  | .local _ .vmem, ⟨6, _⟩ => ⟨S5000x1, .f32⟩
  | .local _ .vmem, ⟨7, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x3_S128x3_0_0 : ∀ a, (![0, 0] : Fin 2 → Nat) a + S128x3.size a ≤ S128x3.size a
  h_S128x3 : 0 < S128x3.numel
  inb_S3_S3_0 : ∀ a, (![0] : Fin 1 → Nat) a + S3.size a ≤ S3.size a
  h_S3 : 0 < S3.numel
  shapeCasts_S3_S1x3 : S3.ShapeCasts S1x3
  broadcasts_S1x3_S5000x3 : S1x3.Broadcasts S5000x3
  inb_S5000x3_S5000x3_0_0 : ∀ a, (![0, 0] : Fin 2 → Nat) a + S5000x3.size a ≤ S5000x3.size a
  h_S5000x3 : 0 < S5000x3.numel
  reduces_S5000x3_S5000 : S5000x3.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  bcast_S_S100000 : S_.BroadcastsInDim S100000 (![] : Fin 0 → Fin S100000.rank)
  bcast_S_S50000 : S_.BroadcastsInDim S50000 (![] : Fin 0 → Fin S50000.rank)
  bcast_S50000_S50000x1_0 : S50000.BroadcastsInDim S50000x1 (![0] : Fin 1 → Fin S50000x1.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x1_S1600000x1_S1600000x2_d1 : Shape.Concatenates [S1600000x1, S1600000x1] S1600000x2 1
  bcast_S_S50001x2 : S_.BroadcastsInDim S50001x2 (![] : Fin 0 → Fin S50001x2.rank)
  slices_S50001x2_S50000x2_0_0 : S50001x2.Slices ![0, 0] S50000x2
  slices_S50000x2_S50000x1_0_0 : S50000x2.Slices ![0, 0] S50000x1
  shapeCasts_S50000x1_S50000 : S50000x1.ShapeCasts S50000
  slices_S50000x2_S50000x1_0_1 : S50000x2.Slices ![0, 1] S50000x1
  reducesTo_S50000_S_d0 : S50000.ReducesTo [0] S_
  h_S_ : 0 < S_.numel
  dot_S5000x128_S128x3_S5000x3_1_0_0_1_n_n_wf : DotDims.WF S5000x128 S128x3 S5000x3 [1] [0] [0] [1] [] []
  scatter_S100000_S50000x1_S50000_n_0_0_1_wf : ScatterDims.WF S100000 S50000x1 S50000 [] [0] [0] 1
  gather_S100000_S1600000x1_S1600000_n_0_n_n_0_1_1_wf : GatherDims.WF S100000 S1600000x1 S1600000 [] [0] [] [0] [] 1 ![1]
  scatter_S50001x2_S1600000x1_S1600000x2_1_0_0_1_wf : ScatterDims.WF S50001x2 S1600000x1 S1600000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x3.size a ≤ S128x3.size a
  hwx0_1 : ∀ i : grid0.Coords, EltTy.bits .f32 = 32 ∨ (Rect.block (s := S128x3) S128x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3.size a ≤ S3.size a
  hwx0_2 : ∀ i : grid0.Coords, EltTy.bits .f32 = 32 ∨ (Rect.block (s := S3) S3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x3.size a ≤ S100000x3.size a
  hwx0_3 : ∀ i : grid0.Coords, EltTy.bits .f32 = 32 ∨ (Rect.block (s := S100000x3) S5000x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S100000x1.size a
  hwx0_4 : ∀ i : grid0.Coords, EltTy.bits .f32 = 32 ∨ (Rect.block (s := S100000x1) S5000x1.size (cc0_transform_4 i) (hinb0_4 i)).WholeWords (EltTy.packing .f32)

variable [Facts₀]

def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf
def scatter_S100000_S50000x1_S50000_n_0_0_1 : ScatterDims S100000 S50000x1 S50000 where
  updateWindowDims := []
  insertedWindowDims := [0]
  scatterDimsToOperandDims := [0]
  indexVectorDim := 1
  wf := scatter_S100000_S50000x1_S50000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S50001x2_S1600000x1_S1600000x2_1_0_0_1 : ScatterDims S50001x2 S1600000x1 S1600000x2 where
  updateWindowDims := [1]
  insertedWindowDims := [0]
  scatterDimsToOperandDims := [0]
  indexVectorDim := 1
  wf := scatter_S50001x2_S1600000x1_S1600000x2_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S5000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S5000x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x3 : Shape := ⟨2, ![128, 3]⟩
abbrev S3 : Shape := ⟨1, ![3]⟩
abbrev S100000x3 : Shape := ⟨2, ![100000, 3]⟩
abbrev S2x1600000 : Shape := ⟨2, ![2, 1600000]⟩
abbrev S50000 : Shape := ⟨1, ![50000]⟩
abbrev S_ : Shape := ⟨0, ![]⟩
abbrev S100000 : Shape := ⟨1, ![100000]⟩
abbrev S50000x1 : Shape := ⟨2, ![50000, 1]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S1600000x3 : Shape := ⟨2, ![1600000, 3]⟩
abbrev S1x3 : Shape := ⟨2, ![1, 3]⟩
abbrev S50001 : Shape := ⟨1, ![50001]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x3, .f32⟩
  | .hbm, ⟨2, _⟩ => ⟨S3, .f32⟩
  | .hbm, ⟨3, _⟩ => ⟨S100000x3, .f32⟩
  | .hbm, ⟨4, _⟩ => ⟨S2x1600000, .i32⟩
  | .hbm, ⟨5, _⟩ => ⟨S50000, .i32⟩
  | .hbm, ⟨6, _⟩ => ⟨S_, .i32⟩
  | .hbm, ⟨7, _⟩ => ⟨S100000, .i32⟩
  | .hbm, ⟨8, _⟩ => ⟨S50000, .i32⟩
  | .hbm, ⟨9, _⟩ => ⟨S_, .i32⟩
  | .hbm, ⟨10, _⟩ => ⟨S50000, .i32⟩
  | .hbm, ⟨11, _⟩ => ⟨S50000, .i1⟩
  | .hbm, ⟨12, _⟩ => ⟨S_, .i32⟩
  | .hbm, ⟨13, _⟩ => ⟨S50000, .i32⟩
  | .hbm, ⟨14, _⟩ => ⟨S50000, .i32⟩
  | .hbm, ⟨15, _⟩ => ⟨S50000, .i32⟩
  | .hbm, ⟨16, _⟩ => ⟨S50000x1, .i32⟩
  | .hbm, ⟨17, _⟩ => ⟨S100000, .i32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .i32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S1600000x3, .f32⟩
  | .hbm, ⟨44, _⟩ => ⟨S1x3, .f32⟩
  | .hbm, ⟨45, _⟩ => ⟨S1600000x3, .f32⟩
  | .hbm, ⟨46, _⟩ => ⟨S1600000x3, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x3, .f32⟩
  | .hbm, ⟨56, _⟩ => ⟨S1600000x3, .f32⟩
  | .hbm, ⟨57, _⟩ => ⟨S1600000x3, .f32⟩
  | .hbm, ⟨58, _⟩ => ⟨S_, .f32⟩
  | .hbm, ⟨59, _⟩ => ⟨S1600000, .f32⟩
  | .hbm, ⟨60, _⟩ => ⟨S_, .f32⟩
  | .hbm, ⟨61, _⟩ => ⟨S1600000, .f32⟩
  | .hbm, ⟨62, _⟩ => ⟨S1600000, .f32⟩
  | .hbm, ⟨63, _⟩ => ⟨S_, .f32⟩
  | .hbm, ⟨64, _⟩ => ⟨S1600000, .f32⟩
  | .hbm, ⟨65, _⟩ => ⟨S1600000, .f32⟩
  | .hbm, ⟨66, _⟩ => ⟨S_, .f32⟩
  | .hbm, ⟨67, _⟩ => ⟨S50001, .f32⟩
  | .hbm, ⟨68, _⟩ => ⟨S1600000x1, .i32⟩
  | .hbm, ⟨69, _⟩ => ⟨S50001, .f32⟩
  | .hbm, ⟨70, _⟩ => ⟨S50000, .f32⟩
  | .hbm, ⟨71, _⟩ => ⟨S1600000, .f32⟩
  | .hbm, ⟨72, _⟩ => ⟨S_, .f32⟩
  | .hbm, ⟨73, _⟩ => ⟨S50001, .f32⟩
  | .hbm, ⟨74, _⟩ => ⟨S1600000x1, .i32⟩
  | .hbm, ⟨75, _⟩ => ⟨S50001, .f32⟩
  | .hbm, ⟨76, _⟩ => ⟨S50000, .f32⟩
  | .hbm, ⟨77, _⟩ => ⟨S_, .f32⟩
  | .hbm, ⟨78, _⟩ => ⟨S50000, .f32⟩
  | .hbm, ⟨79, _⟩ => ⟨S50000, .f32⟩
  | .hbm, ⟨80, _⟩ => ⟨S50000, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_7 : Ref sig .tc := ⟨.hbm, 47, rfl⟩
abbrev main_v33 : Ref sig .tc := ⟨.hbm, 48, rfl⟩
abbrev main_v34 : Ref sig .tc := ⟨.hbm, 49, rfl⟩
abbrev main_c_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_call0_v0 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_14 : Ref sig .tc := ⟨.hbm, 81, rfl⟩
abbrev main_v58 : Ref sig .tc := ⟨.hbm, 82, rfl⟩
abbrev main_cst_15 : Ref sig .tc := ⟨.hbm, 83, rfl⟩
abbrev main_v59 : Ref sig .tc := ⟨.hbm, 84, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S_S50000 : S_.BroadcastsInDim S50000 (![] : Fin 0 → Fin S50000.rank)
  bcast_S50000_S50000x1_0 : S50000.BroadcastsInDim S50000x1 (![0] : Fin 1 → Fin S50000x1.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S3_S1x3_1 : S3.BroadcastsInDim S1x3 (![1] : Fin 1 → Fin S1x3.rank)
  bcast_S1x3_S1600000x3_0_1 : S1x3.BroadcastsInDim S1600000x3 (![0, 1] : Fin 2 → Fin S1600000x3.rank)
  reducesTo_S1600000x3_S1600000_d1 : S1600000x3.ReducesTo [1] S1600000
  h_S_ : 0 < S_.numel
  bcast_S_S50001 : S_.BroadcastsInDim S50001 (![] : Fin 0 → Fin S50001.rank)
  slices_S50001_S50000_0 : S50001.Slices ![0] S50000
  reducesTo_S50000_S_d0 : S50000.ReducesTo [0] S_
  scatter_S100000_S50000x1_S50000_n_0_0_1_wf : ScatterDims.WF S100000 S50000x1 S50000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  dot_S1600000x128_S128x3_S1600000x3_1_0_0_1_n_n_wf : DotDims.WF S1600000x128 S128x3 S1600000x3 [1] [0] [0] [1] [] []
  gather_S100000x3_S1600000x1_S1600000x3_1_0_n_n_0_1_13_wf : GatherDims.WF S100000x3 S1600000x1 S1600000x3 [1] [0] [] [0] [] 1 ![1, 3]
  scatter_S50001_S1600000x1_S1600000_n_0_0_1_wf : ScatterDims.WF S50001 S1600000x1 S1600000 [] [0] [0] 1

variable [Facts₀]

def scatter_S100000_S50000x1_S50000_n_0_0_1 : ScatterDims S100000 S50000x1 S50000 where
  updateWindowDims := []
  insertedWindowDims := [0]
  scatterDimsToOperandDims := [0]
  indexVectorDim := 1
  wf := scatter_S100000_S50000x1_S50000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x128_S128x3_S1600000x3_1_0_0_1_n_n : DotDims S1600000x128 S128x3 S1600000x3 where
  lhsContracting := [1]
  rhsContracting := [0]
  lhsNonContracting := [0]
  rhsNonContracting := [1]
  lhsBatch := []
  rhsBatch := []
  wf := dot_S1600000x128_S128x3_S1600000x3_1_0_0_1_n_n_wf
def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def scatter_S50001_S1600000x1_S1600000_n_0_0_1 : ScatterDims S50001 S1600000x1 S1600000 where
  updateWindowDims := []
  insertedWindowDims := [0]
  scatterDimsToOperandDims := [0]
  indexVectorDim := 1
  wf := scatter_S50001_S1600000x1_S1600000_n_0_0_1_wf

class Facts : Prop extends Facts₀ where

variable [Facts]
-- ==== Proof.LibAfter.lean ====
/-
  General facts about `StableHlo.after` over a line in single-assignment form: a line of host operations each of
  which writes exactly one reference, the written references pairwise distinct. For such a line the contents of a
  written reference after the whole line are the writing operation's result over the contents after the operations
  before it, and a reference written before position `k` (or never written) holds after the whole line what it holds
  after the first `k` operations. Hence the per-operation read equations `read_unary`, `read_binary`, … : the
  final contents of a result are the operation's function of the FINAL contents of its operands.
-/
import Idealize.ShloMosaic.Lib.StableHlo.Run

namespace Cert.LibAfter

open Idealize.ShloMosaic Idealize.ShloMosaic.StableHlo

variable {τ : Topo} {sig : RefSig} {Val : EltTy → Type}

/-- Operation by operation, the line writes exactly the references of the list. -/
abbrev Writes (ops : List (HloOp τ sig Val)) (wr : List (Ref sig .tc)) : Prop :=
  List.Forall₂ (fun op r => op.writes = {Proc.devRef (τ := τ) .tc r}) ops wr

/-- The fold over two lines in a row is the fold over the second from the fold over the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A reference the line never writes keeps its contents. -/
theorem after_of_not_written {ops : List (HloOp τ sig Val)} {wr : List (Ref sig .tc)} (hw : Writes ops wr)
    {r : Ref sig .tc} (hr : r ∉ wr) (V : Valuation τ sig Val) :
    after ops V (Proc.devRef .tc r) = V (Proc.devRef .tc r) := by
  induction hw generalizing V with
  | nil => rfl
  | @cons op r' ops wr hop _ ih =>
    rw [after_cons, ih (fun h => hr (List.mem_cons_of_mem _ h)),
      op.result_of_not_mem V (by
        rw [hop, Finset.mem_singleton]
        exact devRef_ne_of_ne (fun e => hr (e ▸ List.mem_cons_self)))]

theorem writes_drop {ops : List (HloOp τ sig Val)} {wr : List (Ref sig .tc)} (hw : Writes ops wr) (k : Nat) :
    Writes (ops.drop k) (wr.drop k) := List.forall₂_drop k hw

theorem writes_append {o₁ o₂ : List (HloOp τ sig Val)} {w₁ w₂ : List (Ref sig .tc)} (h₁ : Writes o₁ w₁) (h₂ : Writes o₂ w₂) :
    Writes (o₁ ++ o₂) (w₁ ++ w₂) := List.rel_append h₁ h₂

/-- In a list without repetition, the entry at a position is not among the entries from a later position on. -/
theorem not_mem_drop_of_lt {α : Type} {l : List α} (hnd : l.Nodup) {i k : Nat} (hik : i < k) {a : α}
    (ha : l[i]? = some a) : a ∉ l.drop k := by
  intro hmem
  obtain ⟨j, hj⟩ := List.mem_iff_getElem?.mp hmem
  rw [List.getElem?_drop] at hj
  have hlt : k + j < l.length := (List.getElem?_eq_some_iff.mp hj).1
  exact (List.nodup_iff_getElem?_ne_getElem?.mp hnd i (k + j) (by omega) hlt) (ha.trans hj.symm)

theorem not_mem_drop_of_not_mem {α : Type} {l : List α} {a : α} (ha : a ∉ l) (k : Nat) : a ∉ l.drop k :=
  fun h => ha (List.mem_of_mem_drop h)

/-- A reference not written from position `k` on holds after the line what it holds after the first `k` operations. -/
theorem after_keep {ops : List (HloOp τ sig Val)} {wr : List (Ref sig .tc)} (hw : Writes ops wr) (k : Nat)
    {a : Ref sig .tc} (ha : a ∉ wr.drop k) (V : Valuation τ sig Val) :
    after ops V (Proc.devRef .tc a) = after (ops.take k) V (Proc.devRef .tc a) := by
  conv_lhs => rw [← List.take_append_drop k ops]
  rw [after_append, after_of_not_written (writes_drop hw k) ha]

/-- The reference written at position `k` holds after the line the result of that operation over the contents after
    the first `k` operations. -/
theorem after_at {ops : List (HloOp τ sig Val)} {wr : List (Ref sig .tc)} (hw : Writes ops wr) (hnd : wr.Nodup) (k : Nat)
    {op : HloOp τ sig Val} {y : Ref sig .tc} (hop : ops[k]? = some op) (hy : wr[k]? = some y) (V : Valuation τ sig Val) :
    after ops V (Proc.devRef .tc y) = op.result (after (ops.take k) V) (Proc.devRef .tc y) := by
  obtain ⟨hk, hopk⟩ := List.getElem?_eq_some_iff.mp hop
  have e : ops = ops.take k ++ op :: ops.drop (k + 1) := by
    rw [← hopk, ← List.drop_eq_getElem_cons hk, List.take_append_drop]
  conv_lhs => rw [e]
  rw [after_append, after_cons,
    after_of_not_written (writes_drop hw (k + 1)) (not_mem_drop_of_lt hnd (Nat.lt_succ_self k) hy)]

section Reads

variable {ops : List (HloOp τ sig Val)} {wr : List (Ref sig .tc)} (hw : Writes ops wr) (hnd : wr.Nodup) (k : Nat)
include hw hnd

/-- A constant's buffer holds the constant. -/
theorem read_nullary {y : Ref sig .tc} {v : y.ty.Contents Val} {hy}
    (hop : ops[k]? = some (nullary (τ := τ) y v hy)) (hyk : wr[k]? = some y) (V : Valuation τ sig Val) :
    after ops V (Proc.devRef .tc y) = v := by
  rw [after_at hw hnd k hop hyk, nullary_result]

/-- A one-operand operation's result holds its function of the operand's final contents. -/
theorem read_unary {x y : Ref sig .tc} {f : x.ty.Contents Val → y.ty.Contents Val} {hx hy}
    (hop : ops[k]? = some (unary (τ := τ) x y f hx hy)) (hyk : wr[k]? = some y) (hxk : x ∉ wr.drop k)
    (V : Valuation τ sig Val) :
    after ops V (Proc.devRef .tc y) = f (after ops V (Proc.devRef .tc x)) := by
  rw [after_at hw hnd k hop hyk, unary_result, after_keep hw k hxk]

/-- A two-operand operation's result holds its function of the operands' final contents. -/
theorem read_binary {a b y : Ref sig .tc} {f : a.ty.Contents Val → b.ty.Contents Val → y.ty.Contents Val} {ha hb hy}
    (hop : ops[k]? = some (binary (τ := τ) a b y f ha hb hy)) (hyk : wr[k]? = some y)
    (hak : a ∉ wr.drop k) (hbk : b ∉ wr.drop k) (V : Valuation τ sig Val) :
    after ops V (Proc.devRef .tc y) = f (after ops V (Proc.devRef .tc a)) (after ops V (Proc.devRef .tc b)) := by
  rw [after_at hw hnd k hop hyk, binary_result, after_keep hw k hak, after_keep hw k hbk]

/-- A three-operand operation's result holds its function of the operands' final contents. -/
theorem read_ternary {c a b y : Ref sig .tc}
    {f : c.ty.Contents Val → a.ty.Contents Val → b.ty.Contents Val → y.ty.Contents Val} {hc ha hb hy}
    (hop : ops[k]? = some (ternary (τ := τ) c a b y f hc ha hb hy)) (hyk : wr[k]? = some y)
    (hck : c ∉ wr.drop k) (hak : a ∉ wr.drop k) (hbk : b ∉ wr.drop k) (V : Valuation τ sig Val) :
    after ops V (Proc.devRef .tc y)
      = f (after ops V (Proc.devRef .tc c)) (after ops V (Proc.devRef .tc a)) (after ops V (Proc.devRef .tc b)) := by
  rw [after_at hw hnd k hop hyk, ternary_result, after_keep hw k hck, after_keep hw k hak, after_keep hw k hbk]

/-- A reshape's result holds the operand's final contents, re-indexed row-major at the result's shape. -/
theorem read_reshape {x y : Ref sig .tc} {he : x.ty.elt = y.ty.elt} {hn : x.ty.shape.ShapeCasts y.ty.shape} {hx hy}
    (hop : ops[k]? = some (reshape (τ := τ) (Val := Val) x y he hn hx hy)) (hyk : wr[k]? = some y) (hxk : x ∉ wr.drop k)
    (V : Valuation τ sig Val) :
    after ops V (Proc.devRef .tc y) = fun i => he ▸ shapeCast y.ty.shape (after ops V (Proc.devRef .tc x)) hn i := by
  rw [after_at hw hnd k hop hyk, reshape_result, after_keep hw k hxk]

end Reads

end Cert.LibAfter
-- ==== Proof.RefRunH.lean ====
/-
  The reference's run, read back in three parts.

  The reference's @main is a straight line of 79 host operations. Its run (the library's `run_seq`) ends with every
  buffer at the fold of the operations over the launch contents; what that fold leaves in the result buffer is read
  here in three parts, each from ANY contents of the buffers it reads:
    * the first 28 operations leave the destination vector, the owners and the mask (`partA_…`),
    * the next 30 leave the per-edge error, from the four float arguments and the destination vector, and a
      zero (`partB_…`),
    * the two operations of the outlined selection leave the masked error (`partW_…`),
    * the last 19 leave the result, from the mask, the masked error and the owners (`partC_result`);
  each as the stage the read-at-an-index module names (`val_main_v12`, `val_main_v19`, `val_main_v21`,
  `val_main_v44`, `val_main_v45`, `val_main_v59`). `run` says: every weakly fair execution of the reference terminates with the result
  buffer at `val_main_v59` of the argument arrays, the arguments unchanged.
-/
import proofs.«159589_j46420006535686_2_alg».proof.Proof.RefRun
import proofs.«159589_j46420006535686_2_alg».proof.Proof.RefRead
import proofs.«159589_j46420006535686_2_alg».proof.Proof.LibAfter
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- Operations 1 … 28: the owner table, the two rows of the edge list, the owners and the mask. -/
abbrev opsA : List (HloOp τ sig (Elt F)) :=
  [ nullary main_c (constantI S_ 32 50000#32),
    unary main_c main_v0 (broadcastInDim S100000 ![] bcast_S_S100000 : (⟨S_, .i32⟩ : BufTy).Contents (Elt F) → (⟨S100000, .i32⟩ : BufTy).Contents (Elt F)),
    nullary main_v1 (iotaInDim S50000 32 0),
    nullary main_c_0 (constantI S_ 32 0#32),
    unary main_c_0 main_v2 (broadcastInDim S50000 ![] bcast_S_S50000 : (⟨S_, .i32⟩ : BufTy).Contents (Elt F) → (⟨S50000, .i32⟩ : BufTy).Contents (Elt F)),
    binary main_arg5 main_v2 main_v3 (cmpi .slt : (⟨S50000, .i32⟩ : BufTy).Contents (Elt F) → (⟨S50000, .i32⟩ : BufTy).Contents (Elt F) → (⟨S50000, .i1⟩ : BufTy).Contents (Elt F)),
    nullary main_c_1 (constantI S_ 32 100000#32),
    unary main_c_1 main_v4 (broadcastInDim S50000 ![] bcast_S_S50000 : (⟨S_, .i32⟩ : BufTy).Contents (Elt F) → (⟨S50000, .i32⟩ : BufTy).Contents (Elt F)),
    binary main_arg5 main_v4 main_v5 (addi : (⟨S50000, .i32⟩ : BufTy).Contents (Elt F) → (⟨S50000, .i32⟩ : BufTy).Contents (Elt F) → (⟨S50000, .i32⟩ : BufTy).Contents (Elt F)),
    ternary main_v3 main_v5 main_arg5 main_v6 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v6 main_v7 (broadcastInDim S50000x1 ![0] bcast_S50000_S50000x1_0 : (⟨S50000, .i32⟩ : BufTy).Contents (Elt F) → (⟨S50000x1, .i32⟩ : BufTy).Contents (Elt F)),
    ternary main_v0 main_v7 main_v1 main_v8 ((fun x i u => Host.scatter scatter_S100000_S50000x1_S50000_n_0_0_1 (fun _ b => b) x i u) : (⟨S100000, .i32⟩ : BufTy).Contents (Elt F) → (⟨S50000x1, .i32⟩ : BufTy).Contents (Elt F) → (⟨S50000, .i32⟩ : BufTy).Contents (Elt F) → (⟨S100000, .i32⟩ : BufTy).Contents (Elt F)),
    unary main_arg4 main_v9 ((extractStridedSlice S1x1600000 ![0, 0] · slices_S2x1600000_S1x1600000_0_0) : (⟨S2x1600000, .i32⟩ : BufTy).Contents (Elt F) → (⟨S1x1600000, .i32⟩ : BufTy).Contents (Elt F)),
    reshape main_v9 main_v10 rfl shapeCasts_S1x1600000_S1600000,
    unary main_arg4 main_v11 ((extractStridedSlice S1x1600000 ![1, 0] · slices_S2x1600000_S1x1600000_1_0) : (⟨S2x1600000, .i32⟩ : BufTy).Contents (Elt F) → (⟨S1x1600000, .i32⟩ : BufTy).Contents (Elt F)),
    reshape main_v11 main_v12 rfl shapeCasts_S1x1600000_S1600000,
    nullary main_c_2 (constantI S_ 32 0#32),
    unary main_c_2 main_v13 (broadcastInDim S1600000 ![] bcast_S_S1600000 : (⟨S_, .i32⟩ : BufTy).Contents (Elt F) → (⟨S1600000, .i32⟩ : BufTy).Contents (Elt F)),
    binary main_v10 main_v13 main_v14 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v15 (broadcastInDim S1600000 ![] bcast_S_S1600000 : (⟨S_, .i32⟩ : BufTy).Contents (Elt F) → (⟨S1600000, .i32⟩ : BufTy).Contents (Elt F)),
    binary main_v10 main_v15 main_v16 (addi : (⟨S1600000, .i32⟩ : BufTy).Contents (Elt F) → (⟨S1600000, .i32⟩ : BufTy).Contents (Elt F) → (⟨S1600000, .i32⟩ : BufTy).Contents (Elt F)),
    ternary main_v14 main_v16 main_v10 main_v17 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v17 main_v18 (broadcastInDim S1600000x1 ![0] bcast_S1600000_S1600000x1_0 : (⟨S1600000, .i32⟩ : BufTy).Contents (Elt F) → (⟨S1600000x1, .i32⟩ : BufTy).Contents (Elt F)),
    binary main_v8 main_v18 main_v19 ((fun x i => Host.gather gather_S100000_S1600000x1_S1600000_n_0_n_n_0_1_1 x i) : (⟨S100000, .i32⟩ : BufTy).Contents (Elt F) → (⟨S1600000x1, .i32⟩ : BufTy).Contents (Elt F) → (⟨S1600000, .i32⟩ : BufTy).Contents (Elt F)),
    nullary main_c_4 (constantI S_ 32 50000#32),
    unary main_c_4 main_v20 (broadcastInDim S1600000 ![] bcast_S_S1600000 : (⟨S_, .i32⟩ : BufTy).Contents (Elt F) → (⟨S1600000, .i32⟩ : BufTy).Contents (Elt F)),
    binary main_v19 main_v20 main_v21 (cmpi .slt : (⟨S1600000, .i32⟩ : BufTy).Contents (Elt F) → (⟨S1600000, .i32⟩ : BufTy).Contents (Elt F) → (⟨S1600000, .i1⟩ : BufTy).Contents (Elt F)) ]

/-- Operations 29 … 58: the gathered rows, the head, the squared error, its mean over the three coordinates; a zero. -/
abbrev opsB : List (HloOp τ sig (Elt F)) :=
  [ nullary main_c_5 (constantI S_ 32 0#32),
    unary main_c_5 main_v22 (broadcastInDim S1600000 ![] bcast_S_S1600000 : (⟨S_, .i32⟩ : BufTy).Contents (Elt F) → (⟨S1600000, .i32⟩ : BufTy).Contents (Elt F)),
    binary main_v12 main_v22 main_v23 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v24 (broadcastInDim S1600000 ![] bcast_S_S1600000 : (⟨S_, .i32⟩ : BufTy).Contents (Elt F) → (⟨S1600000, .i32⟩ : BufTy).Contents (Elt F)),
    binary main_v12 main_v24 main_v25 (addi : (⟨S1600000, .i32⟩ : BufTy).Contents (Elt F) → (⟨S1600000, .i32⟩ : BufTy).Contents (Elt F) → (⟨S1600000, .i32⟩ : BufTy).Contents (Elt F)),
    ternary main_v23 main_v25 main_v12 main_v26 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v26 main_v27 (broadcastInDim S1600000x1 ![0] bcast_S1600000_S1600000x1_0 : (⟨S1600000, .i32⟩ : BufTy).Contents (Elt F) → (⟨S1600000x1, .i32⟩ : BufTy).Contents (Elt F)),
    binary main_arg0 main_v27 main_v28 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    binary main_v28 main_arg1 main_v29 ((fun l r => Host.dotGeneral dot_S1600000x128_S128x3_S1600000x3_1_0_0_1_n_n none l r) : (⟨S1600000x128, .f32⟩ : BufTy).Contents (Elt F) → (⟨S128x3, .f32⟩ : BufTy).Contents (Elt F) → (⟨S1600000x3, .f32⟩ : BufTy).Contents (Elt F)),
    unary main_arg2 main_v30 (broadcastInDim S1x3 ![1] bcast_S3_S1x3_1 : (⟨S3, .f32⟩ : BufTy).Contents (Elt F) → (⟨S1x3, .f32⟩ : BufTy).Contents (Elt F)),
    unary main_v30 main_v31 (broadcastInDim S1600000x3 ![0, 1] bcast_S1x3_S1600000x3_0_1 : (⟨S1x3, .f32⟩ : BufTy).Contents (Elt F) → (⟨S1600000x3, .f32⟩ : BufTy).Contents (Elt F)),
    binary main_v29 main_v31 main_v32 (addf : (⟨S1600000x3, .f32⟩ : BufTy).Contents (Elt F) → (⟨S1600000x3, .f32⟩ : BufTy).Contents (Elt F) → (⟨S1600000x3, .f32⟩ : BufTy).Contents (Elt F)),
    nullary main_c_7 (constantI S_ 32 0#32),
    unary main_c_7 main_v33 (broadcastInDim S1600000 ![] bcast_S_S1600000 : (⟨S_, .i32⟩ : BufTy).Contents (Elt F) → (⟨S1600000, .i32⟩ : BufTy).Contents (Elt F)),
    binary main_v12 main_v33 main_v34 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v35 (broadcastInDim S1600000 ![] bcast_S_S1600000 : (⟨S_, .i32⟩ : BufTy).Contents (Elt F) → (⟨S1600000, .i32⟩ : BufTy).Contents (Elt F)),
    binary main_v12 main_v35 main_v36 (addi : (⟨S1600000, .i32⟩ : BufTy).Contents (Elt F) → (⟨S1600000, .i32⟩ : BufTy).Contents (Elt F) → (⟨S1600000, .i32⟩ : BufTy).Contents (Elt F)),
    ternary main_v34 main_v36 main_v12 main_v37 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v37 main_v38 (broadcastInDim S1600000x1 ![0] bcast_S1600000_S1600000x1_0 : (⟨S1600000, .i32⟩ : BufTy).Contents (Elt F) → (⟨S1600000x1, .i32⟩ : BufTy).Contents (Elt F)),
    binary main_arg3 main_v38 main_v39 ((fun x i => Host.gather gather_S100000x3_S1600000x1_S1600000x3_1_0_n_n_0_1_13 x i) : (⟨S100000x3, .f32⟩ : BufTy).Contents (Elt F) → (⟨S1600000x1, .i32⟩ : BufTy).Contents (Elt F) → (⟨S1600000x3, .f32⟩ : BufTy).Contents (Elt F)),
    binary main_v32 main_v39 main_v40 (subf : (⟨S1600000x3, .f32⟩ : BufTy).Contents (Elt F) → (⟨S1600000x3, .f32⟩ : BufTy).Contents (Elt F) → (⟨S1600000x3, .f32⟩ : BufTy).Contents (Elt F)),
    binary main_v40 main_v40 main_v41 (mulf : (⟨S1600000x3, .f32⟩ : BufTy).Contents (Elt F) → (⟨S1600000x3, .f32⟩ : BufTy).Contents (Elt F) → (⟨S1600000x3, .f32⟩ : BufTy).Contents (Elt F)),
    nullary main_cst (constant S_ .f32 0x00000000#32),
    binary main_v41 main_cst main_v42 ((fun x v => Host.reduceAdd x v reducesTo_S1600000x3_S1600000_d1 h_S_) : (⟨S1600000x3, .f32⟩ : BufTy).Contents (Elt F) → (⟨S_, .f32⟩ : BufTy).Contents (Elt F) → (⟨S1600000, .f32⟩ : BufTy).Contents (Elt F)),
    nullary main_cst_9 (constant S_ .f32 0x40400000#32),
    unary main_cst_9 main_v43 (broadcastInDim S1600000 ![] bcast_S_S1600000 : (⟨S_, .f32⟩ : BufTy).Contents (Elt F) → (⟨S1600000, .f32⟩ : BufTy).Contents (Elt F)),
    binary main_v42 main_v43 main_v44 (Host.divf : (⟨S1600000, .f32⟩ : BufTy).Contents (Elt F) → (⟨S1600000, .f32⟩ : BufTy).Contents (Elt F) → (⟨S1600000, .f32⟩ : BufTy).Contents (Elt F)),
    nullary main_cst_10 (constant S_ .f32 0x00000000#32) ]

/-- Operations 59, 60: the outlined selection. -/
abbrev opsW : List (HloOp τ sig (Elt F)) :=
  [ TRef.unary (TRef.of (T := ⟨S_, .f32⟩) main_cst_10) (TRef.of (T := ⟨S1600000, .f32⟩) main_call0_v0) (broadcastInDim S1600000 ![] bcast_S_S1600000),
    TRef.ternary (TRef.of (T := ⟨S1600000, .i1⟩) main_v21) (TRef.of (T := ⟨S1600000, .f32⟩) main_v44) (TRef.of (T := ⟨S1600000, .f32⟩) main_call0_v0) (TRef.of (T := ⟨S1600000, .f32⟩) main_v45) select ]

/-- Operations 61 … 79: the two sums per centre, the mean over the centres. -/
abbrev opsC : List (HloOp τ sig (Elt F)) :=
  [ nullary main_cst_11 (constant S_ .f32 0x00000000#32),
    unary main_cst_11 main_v46 (broadcastInDim S50001 ![] bcast_S_S50001 : (⟨S_, .f32⟩ : BufTy).Contents (Elt F) → (⟨S50001, .f32⟩ : BufTy).Contents (Elt F)),
    unary main_v19 main_v47 (broadcastInDim S1600000x1 ![0] bcast_S1600000_S1600000x1_0 : (⟨S1600000, .i32⟩ : BufTy).Contents (Elt F) → (⟨S1600000x1, .i32⟩ : BufTy).Contents (Elt F)),
    ternary main_v46 main_v47 main_v45 main_v48 ((fun x i u => Host.scatterAdd scatter_S50001_S1600000x1_S1600000_n_0_0_1 x i u) : (⟨S50001, .f32⟩ : BufTy).Contents (Elt F) → (⟨S1600000x1, .i32⟩ : BufTy).Contents (Elt F) → (⟨S1600000, .f32⟩ : BufTy).Contents (Elt F) → (⟨S50001, .f32⟩ : BufTy).Contents (Elt F)),
    unary main_v48 main_v49 ((extractStridedSlice S50000 ![0] · slices_S50001_S50000_0) : (⟨S50001, .f32⟩ : BufTy).Contents (Elt F) → (⟨S50000, .f32⟩ : BufTy).Contents (Elt F)),
    unary main_v21 main_v50 (uitofp .f32 : (⟨S1600000, .i1⟩ : BufTy).Contents (Elt F) → (⟨S1600000, .f32⟩ : BufTy).Contents (Elt F)),
    nullary main_cst_12 (constant S_ .f32 0x00000000#32),
    unary main_cst_12 main_v51 (broadcastInDim S50001 ![] bcast_S_S50001 : (⟨S_, .f32⟩ : BufTy).Contents (Elt F) → (⟨S50001, .f32⟩ : BufTy).Contents (Elt F)),
    unary main_v19 main_v52 (broadcastInDim S1600000x1 ![0] bcast_S1600000_S1600000x1_0 : (⟨S1600000, .i32⟩ : BufTy).Contents (Elt F) → (⟨S1600000x1, .i32⟩ : BufTy).Contents (Elt F)),
    ternary main_v51 main_v52 main_v50 main_v53 ((fun x i u => Host.scatterAdd scatter_S50001_S1600000x1_S1600000_n_0_0_1 x i u) : (⟨S50001, .f32⟩ : BufTy).Contents (Elt F) → (⟨S1600000x1, .i32⟩ : BufTy).Contents (Elt F) → (⟨S1600000, .f32⟩ : BufTy).Contents (Elt F) → (⟨S50001, .f32⟩ : BufTy).Contents (Elt F)),
    unary main_v53 main_v54 ((extractStridedSlice S50000 ![0] · slices_S50001_S50000_0) : (⟨S50001, .f32⟩ : BufTy).Contents (Elt F) → (⟨S50000, .f32⟩ : BufTy).Contents (Elt F)),
    nullary main_cst_13 (constant S_ .f32 0x3F800000#32),
    unary main_cst_13 main_v55 (broadcastInDim S50000 ![] bcast_S_S50000 : (⟨S_, .f32⟩ : BufTy).Contents (Elt F) → (⟨S50000, .f32⟩ : BufTy).Contents (Elt F)),
    binary main_v54 main_v55 main_v56 (maximumf : (⟨S50000, .f32⟩ : BufTy).Contents (Elt F) → (⟨S50000, .f32⟩ : BufTy).Contents (Elt F) → (⟨S50000, .f32⟩ : BufTy).Contents (Elt F)),
    binary main_v49 main_v56 main_v57 (Host.divf : (⟨S50000, .f32⟩ : BufTy).Contents (Elt F) → (⟨S50000, .f32⟩ : BufTy).Contents (Elt F) → (⟨S50000, .f32⟩ : BufTy).Contents (Elt F)),
    nullary main_cst_14 (constant S_ .f32 0x00000000#32),
    binary main_v57 main_cst_14 main_v58 ((fun x v => Host.reduceAdd x v reducesTo_S50000_S_d0 h_S_) : (⟨S50000, .f32⟩ : BufTy).Contents (Elt F) → (⟨S_, .f32⟩ : BufTy).Contents (Elt F) → (⟨S_, .f32⟩ : BufTy).Contents (Elt F)),
    nullary main_cst_15 (constant S_ .f32 0x47435000#32),
    binary main_v58 main_cst_15 main_v59 (Host.divf : (⟨S_, .f32⟩ : BufTy).Contents (Elt F) → (⟨S_, .f32⟩ : BufTy).Contents (Elt F) → (⟨S_, .f32⟩ : BufTy).Contents (Elt F)) ]

set_option maxRecDepth 65536 in
/-- The line is the four parts in a row. -/
theorem ops_split : (Cert.ReferenceIdeal.RunP.ops : List (HloOp τ sig (Elt F))) = opsA ++ (opsB ++ (opsW ++ opsC)) := rfl

/-! ## Part A -/

set_option maxRecDepth 16384 in
set_option maxHeartbeats 4000000 in
theorem partA_dst (V : Valuation τ sig (Elt F)) :
    after opsA V (Proc.devRef .tc main_v12) = val_main_v12 (F := F) (V (Proc.devRef .tc main_arg4)) := by
  simp only [opsA]
  after_results_simp
  rfl

set_option maxRecDepth 16384 in
set_option maxHeartbeats 4000000 in
theorem partA_owners (V : Valuation τ sig (Elt F)) :
    after opsA V (Proc.devRef .tc main_v19)
      = val_main_v19 (F := F) (V (Proc.devRef .tc main_arg4)) (V (Proc.devRef .tc main_arg5)) := by
  simp only [opsA]
  after_results_simp
  rfl

set_option maxRecDepth 16384 in
set_option maxHeartbeats 4000000 in
theorem partA_mask (V : Valuation τ sig (Elt F)) :
    after opsA V (Proc.devRef .tc main_v21)
      = val_main_v21 (F := F) (V (Proc.devRef .tc main_arg4)) (V (Proc.devRef .tc main_arg5)) := by
  simp only [opsA]
  after_results_simp
  rfl

set_option maxRecDepth 16384 in
set_option maxHeartbeats 4000000 in
/-- Part A writes none of the four float arguments. -/
theorem partA_args (V : Valuation τ sig (Elt F)) :
    after opsA V (Proc.devRef .tc main_arg0) = V (Proc.devRef .tc main_arg0)
    ∧ after opsA V (Proc.devRef .tc main_arg1) = V (Proc.devRef .tc main_arg1)
    ∧ after opsA V (Proc.devRef .tc main_arg2) = V (Proc.devRef .tc main_arg2)
    ∧ after opsA V (Proc.devRef .tc main_arg3) = V (Proc.devRef .tc main_arg3) := by
  simp only [opsA]
  refine ⟨?_, ?_, ?_, ?_⟩ <;> after_results_simp <;> rfl

/-! ## Part B -/

set_option maxRecDepth 16384 in
set_option maxHeartbeats 4000000 in
/-- From contents holding the arguments and the destination vector, part B leaves the per-edge error. -/
theorem partB_err (V : Valuation τ sig (Elt F)) (x0 : (⟨S100000x128, .f32⟩ : BufTy).Contents (Elt F)) (x1 : (⟨S128x3, .f32⟩ : BufTy).Contents (Elt F))
    (x2 : (⟨S3, .f32⟩ : BufTy).Contents (Elt F)) (x3 : (⟨S100000x3, .f32⟩ : BufTy).Contents (Elt F)) (x4 : (⟨S2x1600000, .i32⟩ : BufTy).Contents (Elt F))
    (h0 : V (Proc.devRef .tc main_arg0) = x0) (h1 : V (Proc.devRef .tc main_arg1) = x1)
    (h2 : V (Proc.devRef .tc main_arg2) = x2) (h3 : V (Proc.devRef .tc main_arg3) = x3)
    (hd : V (Proc.devRef .tc main_v12) = val_main_v12 (F := F) x4) :
    after opsB V (Proc.devRef .tc main_v44) = val_main_v44 (F := F) x0 x1 x2 x3 x4 := by
  simp only [opsB]
  after_results_simp
  rw [h0, h1, h2, h3, hd]
  rfl

set_option maxRecDepth 16384 in
set_option maxHeartbeats 4000000 in
/-- Part B writes neither the owners nor the mask. -/
theorem partB_keeps (V : Valuation τ sig (Elt F)) :
    after opsB V (Proc.devRef .tc main_v19) = V (Proc.devRef .tc main_v19)
    ∧ after opsB V (Proc.devRef .tc main_v21) = V (Proc.devRef .tc main_v21) := by
  simp only [opsB]
  refine ⟨?_, ?_⟩ <;> after_results_simp <;> rfl

set_option maxRecDepth 16384 in
set_option maxHeartbeats 4000000 in
/-- Part B leaves a zero in the buffer the selection splats. -/
theorem partB_zero (V : Valuation τ sig (Elt F)) :
    after opsB V (Proc.devRef .tc main_cst_10) = val_main_cst_10 (F := F) := by
  simp only [opsB]
  after_results_simp
  rfl

/-! ## The outlined selection -/

set_option maxRecDepth 16384 in
set_option maxHeartbeats 4000000 in
/-- The two operations of the outlined selection, from any contents `V`: the selected buffer ends at the selection, by
    the mask buffer, between the per-edge errors and the splat of the zero buffer. -/
theorem partW_select (V : Valuation τ sig (Elt F)) :
    after opsW V (Proc.devRef .tc main_v45)
      = (select (V (Proc.devRef .tc main_v21)) (V (Proc.devRef .tc main_v44))
          (broadcastInDim S1600000 ![] bcast_S_S1600000 (V (Proc.devRef .tc main_cst_10))) : (⟨S1600000, .f32⟩ : BufTy).Contents (Elt F)) := by
  simp only [opsW]
  after_results_simp
  rfl

/-- From contents holding the mask, the per-edge error and the zero, the selection leaves the masked error. -/
theorem partW_errm (V : Valuation τ sig (Elt F)) (x0 : (⟨S100000x128, .f32⟩ : BufTy).Contents (Elt F)) (x1 : (⟨S128x3, .f32⟩ : BufTy).Contents (Elt F))
    (x2 : (⟨S3, .f32⟩ : BufTy).Contents (Elt F)) (x3 : (⟨S100000x3, .f32⟩ : BufTy).Contents (Elt F)) (x4 : (⟨S2x1600000, .i32⟩ : BufTy).Contents (Elt F)) (x5 : (⟨S50000, .i32⟩ : BufTy).Contents (Elt F))
    (hm : V (Proc.devRef .tc main_v21) = val_main_v21 (F := F) x4 x5)
    (he : V (Proc.devRef .tc main_v44) = val_main_v44 (F := F) x0 x1 x2 x3 x4)
    (hz : V (Proc.devRef .tc main_cst_10) = val_main_cst_10 (F := F)) :
    after opsW V (Proc.devRef .tc main_v45) = val_main_v45 (F := F) x0 x1 x2 x3 x4 x5 := by
  rw [partW_select, hm, he, hz]
  rfl

set_option maxRecDepth 16384 in
set_option maxHeartbeats 4000000 in
/-- The selection writes neither the owners nor the mask. -/
theorem partW_keeps (V : Valuation τ sig (Elt F)) :
    after opsW V (Proc.devRef .tc main_v19) = V (Proc.devRef .tc main_v19)
    ∧ after opsW V (Proc.devRef .tc main_v21) = V (Proc.devRef .tc main_v21) := by
  simp only [opsW]
  refine ⟨?_, ?_⟩ <;> after_results_simp <;> rfl

/-! ## Part C -/

set_option maxRecDepth 16384 in
set_option maxHeartbeats 4000000 in
/-- From contents holding the mask, the masked error and the owners, part C leaves the result. -/
theorem partC_result (V : Valuation τ sig (Elt F)) (x0 : (⟨S100000x128, .f32⟩ : BufTy).Contents (Elt F)) (x1 : (⟨S128x3, .f32⟩ : BufTy).Contents (Elt F))
    (x2 : (⟨S3, .f32⟩ : BufTy).Contents (Elt F)) (x3 : (⟨S100000x3, .f32⟩ : BufTy).Contents (Elt F)) (x4 : (⟨S2x1600000, .i32⟩ : BufTy).Contents (Elt F)) (x5 : (⟨S50000, .i32⟩ : BufTy).Contents (Elt F))
    (hm : V (Proc.devRef .tc main_v21) = val_main_v21 (F := F) x4 x5)
    (he : V (Proc.devRef .tc main_v45) = val_main_v45 (F := F) x0 x1 x2 x3 x4 x5)
    (ho : V (Proc.devRef .tc main_v19) = val_main_v19 (F := F) x4 x5) :
    after opsC V (Proc.devRef .tc main_v59) = val_main_v59 (F := F) x0 x1 x2 x3 x4 x5 := by
  simp only [opsC]
  after_results_simp
  rw [hm, he, ho]
  rfl

/-! ## The whole line, and the run -/

/-- What the 79 operations leave in the result buffer, from any launch contents. -/
theorem result_eq (V : Valuation τ sig (Elt F)) :
    after (Cert.ReferenceIdeal.RunP.ops (F := F)) V (Proc.devRef .tc main_v59)
      = val_main_v59 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_split, Cert.LibAfter.after_append, Cert.LibAfter.after_append, Cert.LibAfter.after_append]
  have hmB : after opsB (after opsA V) (Proc.devRef .tc main_v21)
      = val_main_v21 (F := F) (V (Proc.devRef .tc main_arg4)) (V (Proc.devRef .tc main_arg5)) := by
    rw [(partB_keeps _).2, partA_mask]
  have hoB : after opsB (after opsA V) (Proc.devRef .tc main_v19)
      = val_main_v19 (F := F) (V (Proc.devRef .tc main_arg4)) (V (Proc.devRef .tc main_arg5)) := by
    rw [(partB_keeps _).1, partA_owners]
  refine partC_result _ _ _ _ _ _ _ ?_ ?_ ?_
  · rw [(partW_keeps _).2, hmB]
  · exact partW_errm _ _ _ _ _ _ _ hmB
      (partB_err _ _ _ _ _ _ (partA_args V).1 (partA_args V).2.1 (partA_args V).2.2.1 (partA_args V).2.2.2 (partA_dst V))
      (partB_zero _)
  · rw [(partW_keeps _).1, hoB]

set_option maxRecDepth 65536 in
set_option maxHeartbeats 31600000 in
/-- On every device, for any float values, from any memory with zero counters: every weakly fair execution of
    the reference's @main terminates with its result at the last stage's value of the arguments, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59)
          = val_main_v59 (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v59).trans (result_eq _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq Cert.ReferenceIdeal.RunP.scopedRefs_eq Cert.ReferenceIdeal.RunP.scopedSems_eq defs main
      (fun _ => Cert.ReferenceIdeal.RunP.ops) Cert.ReferenceIdeal.RunP.main_eq (fun _ => Cert.ReferenceIdeal.RunP.ops_sub) m ρ)

end Cert.ReferenceIdeal.RunH

end
-- ==== Proof.KTail.lean ====
/-
  The host operations that follow the kernel's one region, as named stages.

  After the region has left the per-node errors in its output array `e0 : [100000, 1]`, the program
    * builds the table `ownerOf` (node → centre slot, 50000 for "not a centre") by scattering `0 … 49999` at the
      centres, and reads it at every edge's source: `owners`; `mask` says the edge's source is a centre;
    * picks the per-node error at every edge's destination (`errEdge`), keeps it where `mask` holds (`errm`);
    * puts a per-edge quantity `em` and a mask `mk` as a number side by side as the two columns of
      `payload : [1600000, 2]`, adds the rows up by owner `ow` into `summed : [50001, 2]`, drops the last row
      (`kept`), and splits the columns again: `lossSum`, `cnt : [50000]`;
    * `meanLoss lossSum cnt` = the mean over the centres of `lossSum / max cnt 1`.
  `result_eq` says the run's value of the program's result buffer is `result` of the region's output array and the
  two integer arguments. The line of operations is read in three parts, each from ANY contents of the buffers it reads: the operations up to
  the picked errors (`head_…`), the two operations of the outlined selection (`where_…`), and the rest (`tail_result`).
-/
import proofs.«159589_j46420006535686_2_alg».proof.Proof.Gen.KernelIdeal.Frame
import proofs.«159589_j46420006535686_2_alg».proof.Proof.LibAfter
import Idealize.ShloMosaic.Lib.StableHlo.Run

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

/-- A centre's node number, a negative one counted from the end (what indexing by a signed integer means). -/
def centre (x5 : (⟨S50000, .i32⟩ : BufTy).Contents (Elt F)) : (⟨S50000, .i32⟩ : BufTy).Contents (Elt F) :=
  select (cmpi .slt x5 (broadcastInDim S50000 ![] bcast_S_S50000 (constantI S_ 32 0#32)))
    (addi x5 (broadcastInDim S50000 ![] bcast_S_S50000 (constantI S_ 32 100000#32))) x5

/-- Node → centre slot; 50000 where the node is no centre. -/
def ownerOf (x5 : (⟨S50000, .i32⟩ : BufTy).Contents (Elt F)) : (⟨S100000, .i32⟩ : BufTy).Contents (Elt F) :=
  Host.scatter scatter_S100000_S50000x1_S50000_n_0_0_1 (fun _ b => b)
    (broadcastInDim S100000 ![] bcast_S_S100000 (constantI S_ 32 50000#32))
    (broadcastInDim S50000x1 ![0] bcast_S50000_S50000x1_0 (centre x5)) (iotaInDim S50000 32 0)

/-- Row 0 of the edge list as a vector: the sources. -/
def srcVec (x4 : (⟨S2x1600000, .i32⟩ : BufTy).Contents (Elt F)) : (⟨S1600000, .i32⟩ : BufTy).Contents (Elt F) :=
  shapeCast _ (extractStridedSlice S1x1600000 ![0, 0] x4 slices_S2x1600000_S1x1600000_0_0) shapeCasts_S1x1600000_S1600000
/-- Row 1 of the edge list as a vector: the destinations. -/
def dstVec (x4 : (⟨S2x1600000, .i32⟩ : BufTy).Contents (Elt F)) : (⟨S1600000, .i32⟩ : BufTy).Contents (Elt F) :=
  shapeCast _ (extractStridedSlice S1x1600000 ![1, 0] x4 slices_S2x1600000_S1x1600000_1_0) shapeCasts_S1x1600000_S1600000

/-- A node number per edge, a negative one counted from the end, as the column of start indices of a gather. -/
def nodeCol (v : (⟨S1600000, .i32⟩ : BufTy).Contents (Elt F)) : (⟨S1600000x1, .i32⟩ : BufTy).Contents (Elt F) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The centre slot of every edge's source. -/
def owners (x4 : (⟨S2x1600000, .i32⟩ : BufTy).Contents (Elt F)) (x5 : (⟨S50000, .i32⟩ : BufTy).Contents (Elt F)) : (⟨S1600000, .i32⟩ : BufTy).Contents (Elt F) :=
  Host.gather gather_S100000_S1600000x1_S1600000_n_0_n_n_0_1_1 (ownerOf x5) (nodeCol (srcVec x4))

/-- The edge's source is a centre. -/
def mask (x4 : (⟨S2x1600000, .i32⟩ : BufTy).Contents (Elt F)) (x5 : (⟨S50000, .i32⟩ : BufTy).Contents (Elt F)) : (⟨S1600000, .i1⟩ : BufTy).Contents (Elt F) :=
  cmpi .slt (owners x4 x5) (broadcastInDim S1600000 ![] bcast_S_S1600000 (constantI S_ 32 50000#32))

/-- The per-node errors as a vector. -/
def errNode (e0 : (⟨S100000x1, .f32⟩ : BufTy).Contents (Elt F)) : (⟨S100000, .f32⟩ : BufTy).Contents (Elt F) :=
  shapeCast _ e0 shapeCasts_S100000x1_S100000

/-- The per-node error at every edge's destination. -/
def errEdge (e0 : (⟨S100000x1, .f32⟩ : BufTy).Contents (Elt F)) (x4 : (⟨S2x1600000, .i32⟩ : BufTy).Contents (Elt F)) : (⟨S1600000, .f32⟩ : BufTy).Contents (Elt F) :=
  Host.gather gather_S100000_S1600000x1_S1600000_n_0_n_n_0_1_1 (errNode e0) (nodeCol (dstVec x4))

/-- … kept where the edge's source is a centre, zero elsewhere. -/
def errm (e0 : (⟨S100000x1, .f32⟩ : BufTy).Contents (Elt F)) (x4 : (⟨S2x1600000, .i32⟩ : BufTy).Contents (Elt F)) (x5 : (⟨S50000, .i32⟩ : BufTy).Contents (Elt F)) : (⟨S1600000, .f32⟩ : BufTy).Contents (Elt F) :=
  select (mask x4 x5) (errEdge e0 x4) (broadcastInDim S1600000 ![] bcast_S_S1600000 (constant S_ .f32 0x00000000#32))

/-- The two per-edge quantities side by side: `em`, and the mask `mk` as a number (one where it holds). -/
def payload (em : (⟨S1600000, .f32⟩ : BufTy).Contents (Elt F)) (mk : (⟨S1600000, .i1⟩ : BufTy).Contents (Elt F)) : (⟨S1600000x2, .f32⟩ : BufTy).Contents (Elt F) :=
  concatenate S1600000x2 1
    [⟨S1600000x1, broadcastInDim S1600000x1 ![0] bcast_S1600000_S1600000x1_0 em⟩,
     ⟨S1600000x1, broadcastInDim S1600000x1 ![0] bcast_S1600000_S1600000x1_0 (uitofp .f32 mk)⟩]
    concatenates_S1600000x1_S1600000x1_S1600000x2_d1

/-- The payload's rows added up by owner `ow`, one row per centre slot and a last one for "no centre". -/
def summed (em : (⟨S1600000, .f32⟩ : BufTy).Contents (Elt F)) (mk : (⟨S1600000, .i1⟩ : BufTy).Contents (Elt F)) (ow : (⟨S1600000, .i32⟩ : BufTy).Contents (Elt F)) : (⟨S50001x2, .f32⟩ : BufTy).Contents (Elt F) :=
  Host.scatterAdd scatter_S50001x2_S1600000x1_S1600000x2_1_0_0_1
    (broadcastInDim S50001x2 ![] bcast_S_S50001x2 (constant S_ .f32 0x00000000#32))
    (broadcastInDim S1600000x1 ![0] bcast_S1600000_S1600000x1_0 ow) (payload em mk)

/-- … without the last row. -/
def kept (em : (⟨S1600000, .f32⟩ : BufTy).Contents (Elt F)) (mk : (⟨S1600000, .i1⟩ : BufTy).Contents (Elt F)) (ow : (⟨S1600000, .i32⟩ : BufTy).Contents (Elt F)) : (⟨S50000x2, .f32⟩ : BufTy).Contents (Elt F) :=
  extractStridedSlice S50000x2 ![0, 0] (summed em mk ow) slices_S50001x2_S50000x2_0_0

/-- Column 0: the summed errors per centre. -/
def lossSum (em : (⟨S1600000, .f32⟩ : BufTy).Contents (Elt F)) (mk : (⟨S1600000, .i1⟩ : BufTy).Contents (Elt F)) (ow : (⟨S1600000, .i32⟩ : BufTy).Contents (Elt F)) : (⟨S50000, .f32⟩ : BufTy).Contents (Elt F) :=
  shapeCast _ (extractStridedSlice S50000x1 ![0, 0] (kept em mk ow) slices_S50000x2_S50000x1_0_0) shapeCasts_S50000x1_S50000

/-- Column 1: the number of edges per centre. -/
def cnt (em : (⟨S1600000, .f32⟩ : BufTy).Contents (Elt F)) (mk : (⟨S1600000, .i1⟩ : BufTy).Contents (Elt F)) (ow : (⟨S1600000, .i32⟩ : BufTy).Contents (Elt F)) : (⟨S50000, .f32⟩ : BufTy).Contents (Elt F) :=
  shapeCast _ (extractStridedSlice S50000x1 ![0, 1] (kept em mk ow) slices_S50000x2_S50000x1_0_1) shapeCasts_S50000x1_S50000

/-- The mean over the centres of `a / max b 1`. -/
def meanLoss (a b : (⟨S50000, .f32⟩ : BufTy).Contents (Elt F)) : (⟨S_, .f32⟩ : BufTy).Contents (Elt F) :=
  Host.divf (Host.reduceAdd (Host.divf a (maximumf b (broadcastInDim S50000 ![] bcast_S_S50000 (constant S_ .f32 0x3F800000#32))))
    (constant S_ .f32 0x00000000#32) reducesTo_S50000_S_d0 h_S_) (constant S_ .f32 0x47435000#32)

/-- The result from a per-edge quantity, a mask and the owners. -/
def resultOf (em : (⟨S1600000, .f32⟩ : BufTy).Contents (Elt F)) (mk : (⟨S1600000, .i1⟩ : BufTy).Contents (Elt F)) (ow : (⟨S1600000, .i32⟩ : BufTy).Contents (Elt F)) : (⟨S_, .f32⟩ : BufTy).Contents (Elt F) :=
  meanLoss (lossSum em mk ow) (cnt em mk ow)

/-- The program's result from the region's output array and the integer arguments. -/
def result (e0 : (⟨S100000x1, .f32⟩ : BufTy).Contents (Elt F)) (x4 : (⟨S2x1600000, .i32⟩ : BufTy).Contents (Elt F)) (x5 : (⟨S50000, .i32⟩ : BufTy).Contents (Elt F)) : (⟨S_, .f32⟩ : BufTy).Contents (Elt F) :=
  resultOf (errm e0 x4 x5) (mask x4 x5) (owners x4 x5)

/-! ## The line in three parts -/

set_option maxRecDepth 16384 in
set_option maxHeartbeats 4000000 in
/-- The last operations of the line, from any contents `V` of the buffers they read: the result buffer ends at
    `resultOf` of the masked error, the mask and the owners as `V` has them. -/
theorem tail_result (V : Valuation τ sig (Elt F)) :
    StableHlo.after hostOps1_2 V (Proc.devRef .tc main_v48)
      = resultOf (V (Proc.devRef .tc main_v31)) (V (Proc.devRef .tc main_v23)) (V (Proc.devRef .tc main_v21)) := by
  simp only [hostOps1_2]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

set_option maxRecDepth 16384 in
set_option maxHeartbeats 4000000 in
/-- The two operations of the outlined selection, from any contents `V`: the selected buffer ends at the selection,
    by the mask buffer, between the picked errors and the splat of the zero buffer. -/
theorem where_errm (V : Valuation τ sig (Elt F)) :
    StableHlo.after hostOps1_1 V (Proc.devRef .tc main_v31)
      = (select (V (Proc.devRef .tc main_v23)) (V (Proc.devRef .tc main_v30))
          (broadcastInDim S1600000 ![] bcast_S_S1600000 (V (Proc.devRef .tc main_cst))) : (⟨S1600000, .f32⟩ : BufTy).Contents (Elt F)) := by
  simp only [hostOps1_1]
  after_results_simp
  rfl

set_option maxRecDepth 16384 in
set_option maxHeartbeats 4000000 in
/-- They write neither the mask nor the owners. -/
theorem where_keeps (V : Valuation τ sig (Elt F)) :
    StableHlo.after hostOps1_1 V (Proc.devRef .tc main_v23) = V (Proc.devRef .tc main_v23)
    ∧ StableHlo.after hostOps1_1 V (Proc.devRef .tc main_v21) = V (Proc.devRef .tc main_v21) := by
  simp only [hostOps1_1]
  refine ⟨?_, ?_⟩ <;> after_results_simp <;> rfl

set_option maxRecDepth 16384 in
set_option maxHeartbeats 4000000 in
/-- The picked errors after the first part of the line, from any contents `W` of the region's array and the arguments. -/
theorem head_errEdge (W : Valuation τ sig (Elt F)) :
    StableHlo.after hostOps1 W (Proc.devRef .tc main_v30)
      = errEdge (W (Proc.devRef .tc main_v0)) (W (Proc.devRef .tc main_arg4)) := by
  simp only [hostOps1]
  after_results_simp
  rfl

set_option maxRecDepth 16384 in
set_option maxHeartbeats 4000000 in
/-- The mask after the first part of the line. -/
theorem head_mask (W : Valuation τ sig (Elt F)) :
    StableHlo.after hostOps1 W (Proc.devRef .tc main_v23)
      = mask (W (Proc.devRef .tc main_arg4)) (W (Proc.devRef .tc main_arg5)) := by
  simp only [hostOps1]
  after_results_simp
  rfl

set_option maxRecDepth 16384 in
set_option maxHeartbeats 4000000 in
/-- The owners after the first part of the line. -/
theorem head_owners (W : Valuation τ sig (Elt F)) :
    StableHlo.after hostOps1 W (Proc.devRef .tc main_v21)
      = owners (W (Proc.devRef .tc main_arg4)) (W (Proc.devRef .tc main_arg5)) := by
  simp only [hostOps1]
  after_results_simp
  rfl

set_option maxRecDepth 16384 in
set_option maxHeartbeats 4000000 in
/-- The zero buffer after the first part of the line. -/
theorem head_zero (W : Valuation τ sig (Elt F)) :
    StableHlo.after hostOps1 W (Proc.devRef .tc main_cst) = (constant S_ .f32 0x00000000#32 : (⟨S_, .f32⟩ : BufTy).Contents (Elt F)) := by
  simp only [hostOps1]
  after_results_simp

/-- What the host operations after the region leave in the result buffer: `result` of the region's output array (what
    the library computes from the proof data) and of the two integer arguments as launched. -/
theorem result_eq (m : (ℓ : Loc nD τ sig) → Buf (Elt F) ℓ) (c : Dev nD) :
    Pipeline.afterTail₀ cfgs (dats m) 0 (V0 m) [hostOps1, hostOps1_1, hostOps1_2] c main_v48
      = result ((dats m 0 c).arrAt 4 cfg0.N) (m ((c.tc : Thread nD τ).loc main_arg4)) (m ((c.tc : Thread nD τ).loc main_arg5)) := by
  unfold Pipeline.afterTail₀
  rw [show ([hostOps1, hostOps1_1, hostOps1_2] : List (List (HloOp τ sig (Elt F)))).flatten = hostOps1 ++ (hostOps1_1 ++ hostOps1_2) from by
    simp only [List.flatten_cons, List.flatten_nil, List.append_nil]]
  rw [Cert.LibAfter.after_append, Cert.LibAfter.after_append, tail_result, where_errm, (where_keeps _).1, (where_keeps _).2,
    head_errEdge, head_mask, head_owners, head_zero,
    Pipeline.withArrays_arr spec0 launch0.win.arr_inj c _ _ 4,
    Pipeline.withArrays_of_ne _ c (V0 m c) _ main_arg4 (by decide),
    Pipeline.withArrays_of_ne _ c (V0 m c) _ main_arg5 (by decide)]
  rfl

end Cert.KernelIdeal.Tail

end
-- ==== Proof.Spec.lean ====
/-
  The per-node quantity both programs compute, as one function of the argument arrays at the ideal
  instance (floats are extended reals).  For node `n`, with features `H n ·`, head `W`, bias `b` and
  target `T n ·`:

    nodeErr H W b T n = ( Σ_{j<3} ( Σ_{k<128} H[n,k]·W[k,j] + b[j] − T[n,j] )² ) / 3.

  The kernel evaluates it once per node (rows in blocks of 5000) and then picks the value at each
  edge's destination; the reference first picks the destination's rows and evaluates it per edge.
-/
import Idealize.ShloMosaic.PureOps.Ideal
import Idealize.ShloMosaic.Lib.ValueIdx

noncomputable section

namespace Cert.Spec

open Idealize.ShloMosaic Idealize.ShloMosaic.ValueIdx

/-- One coordinate of the prediction error of node `n`: `(H[n,·]·W[·,j] + b[j]) − T[n,j]`. -/
def diff (H : (⟨2, ![100000, 128]⟩ : Shape).Idx → EReal) (W : (⟨2, ![128, 3]⟩ : Shape).Idx → EReal)
    (b : (⟨1, ![3]⟩ : Shape).Idx → EReal) (T : (⟨2, ![100000, 3]⟩ : Shape).Idx → EReal)
    (n : Fin 100000) (j : Fin 3) : EReal :=
  ((∑ k : Fin 128, H (ix2 n k) * W (ix2 k j)) + b (ix1 j)) - T (ix2 n j)

/-- The mean over the three output coordinates of the squared prediction error of node `n`; the
    divisor is the float literal 3.0, kept as its word. -/
def nodeErr (H : (⟨2, ![100000, 128]⟩ : Shape).Idx → EReal) (W : (⟨2, ![128, 3]⟩ : Shape).Idx → EReal)
    (b : (⟨1, ![3]⟩ : Shape).Idx → EReal) (T : (⟨2, ![100000, 3]⟩ : Shape).Idx → EReal)
    (n : Fin 100000) : EReal :=
  Ideal.div (∑ j : Fin 3, diff H W b T n j * diff H W b T n j) (Ideal.ofBits .f32 0x40400000#32)

end Cert.Spec

end
-- ==== Proof.LibPlainDot.lean ====
/-
  A plain matrix product read at an index, at the ideal instance.

  For a rank-2 contraction [a, K] · [K, b] → [a, b] (the left operand's axis 1 against the right operand's axis 0, no batch
  axis), the accumulate-into-zero matrix product and the host's dot_general are both, at the result index (p, q), the sum
  over k < K of lhs (p, k) · rhs (k, q): the contracted shape has one axis of extent K, so the sum over its indices is a
  sum over Fin K, and the operand indices the contraction names at (p, q) and k are (p, k) and (k, q). The four coordinate
  facts about a given dimension record (hl0, hl1, hr0, hr1) are taken as hypotheses: for a literal record each is a
  computation.
-/
import Idealize.ShloMosaic.PureOps.Ideal.Laws
import Idealize.ShloMosaic.Lib.ValueIdx

noncomputable section

namespace Cert.Lib.PlainDot

open Idealize.ShloMosaic Idealize.ShloMosaic.ValueIdx

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The sum over the contracted shape's indices of the products of the operands at the contraction's indices is the
    sum over k < K of lhs (p, k) · rhs (k, q). -/
theorem sum_contr (lhs : (⟨2, ![a, K]⟩ : Shape).Idx → EReal) (rhs : (⟨2, ![K, b]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

/-- The matrix product accumulated into the zero splat, at (p, q). -/
theorem matmul_zero_apply (prec : Option ContractPrecision) (lhs : FVec Ideal (⟨2, ![a, K]⟩ : Shape) .f32) (rhs : FVec Ideal (⟨2, ![K, b]⟩ : Shape) .f32)
    (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans (sum_contr D hr hs hl0 hl1 hr0 hr1 lhs rhs p q)

/-- The host's dot_general, at (p, q). -/
theorem dotGeneral_apply (prec : Option ContractPrecision) (lhs : FVec Ideal (⟨2, ![a, K]⟩ : Shape) .f32) (rhs : FVec Ideal (⟨2, ![K, b]⟩ : Shape) .f32)
    (p : Fin a) (q : Fin b) :
    Host.dotGeneral D prec lhs rhs (ix2 p q) = ∑ k : Fin K, lhs (ix2 p k) * rhs (ix2 k q) :=
  (Ideal.dotGeneral_apply D prec .single lhs rhs (ix2 p q)).trans (sum_contr D hr hs hl0 hl1 hr0 hr1 lhs rhs p q)

end Cert.Lib.PlainDot

end
-- ==== Proof.LibRowRead.lean ====
/-
  Vector operations read at an index, at the ideal instance, for the shapes of a row-blocked kernel: a column
  [a, 1] broadcast along the lanes, a vector [a] cast to a column [a, 1], the sum of a row of an [a, b] block,
  four [a, 32] pieces joined along the lanes into [a, 128], and the matrix product into the zero splat for
  operands of any float format (a change of format is the identity on extended reals).
-/
import Idealize.ShloMosaic.PureOps.Ideal.Laws
import Idealize.ShloMosaic.Lib.ValueIdx
import Idealize.ShloMosaic.Lib.ValueLayout
import Idealize.ShloMosaic.Lib.Pipeline.Value
import proofs.«159589_j46420006535686_2_alg».proof.Proof.LibPlainDot

noncomputable section

namespace Cert.Lib.RowRead

open Idealize.ShloMosaic Idealize.ShloMosaic.ValueIdx

variable {α : Type}

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reduced index p with lane k put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The lane sum of an [a, b] block, at row p, is the sum over the b lanes of the block's row p. -/
theorem rowSum_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ) (hacc : acc = FKind.add.neutral φ hφ) (p : Fin a) :
    multiReduction .add [1] (⟨1, ![a]⟩ : Shape) src acc h hφ hacc (ix1 p) = ∑ k : Fin b, src (ix2 p k) := by
  rw [Ideal.multiReduction_add_single]
  exact Finset.sum_congr rfl fun k _ => by rw [lift_row]; rfl

/-- Four [a, 32] pieces joined along the lanes: lane 32 k + c of the result is lane c of piece k. -/
theorem concat4_apply {a : ℕ} (x0 x1 x2 x3 : (⟨2, ![a, 32]⟩ : Shape).Idx → α)
    (h : Shape.Concatenates (([⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] :
      List ((s : Shape) × (s.Idx → α))).map (·.1)) (⟨2, ![a, 128]⟩ : Shape) 1)
    (p : Fin a) (c : Fin 32) (k : Fin 4) (q : Fin 128) (hq : q.val = 32 * k.val + c.val) :
    concatenate (⟨2, ![a, 128]⟩ : Shape) 1 [⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] h (ix2 p q)
      = (![x0, x1, x2, x3] k) (ix2 p c) := by
  have hi : ∀ b : Fin (⟨2, ![a, 32]⟩ : Shape).rank, b.cast (rfl : (⟨2, ![a, 32]⟩ : Shape).rank = (⟨2, ![a, 128]⟩ : Shape).rank) ≠ (1 : Fin 2) →
      ((ix2 p c : (⟨2, ![a, 32]⟩ : Shape).Idx) b).val = ((ix2 p q : (⟨2, ![a, 128]⟩ : Shape).Idx) (b.cast rfl)).val := by
    intro b hb
    match b with
    | ⟨0, _⟩ => rfl
    | ⟨1, _⟩ => exact absurd rfl hb
  fin_cases k
  · exact concatenate_apply_piece 1 _ h _ 0 (by simp) _ x0 rfl rfl 0 rfl (ix2 p c) hi (by show 0 + c.val = q.val; simp at hq; omega)
  · exact concatenate_apply_piece 1 _ h _ 1 (by simp) _ x1 rfl rfl 32 rfl (ix2 p c) hi (by show 32 + c.val = q.val; simp at hq; omega)
  · exact concatenate_apply_piece 1 _ h _ 2 (by simp) _ x2 rfl rfl 64 rfl (ix2 p c) hi (by show 64 + c.val = q.val; simp at hq; omega)
  · exact concatenate_apply_piece 1 _ h _ 3 (by simp) _ x3 rfl rfl 96 rfl (ix2 p c) hi (by show 96 + c.val = q.val; simp at hq; omega)

section Dot

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The matrix product into the zero splat, at (p, q), for operands of any float formats: the sum over k < K of
    lhs (p, k) · rhs (k, q). -/
theorem matmul_zero_apply {φ₁ φ₂ : FTy} (prec : Option ContractPrecision) (lhs : FVec Ideal (⟨2, ![a, K]⟩ : Shape) φ₁)
    (rhs : FVec Ideal (⟨2, ![K, b]⟩ : Shape) φ₂) (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans
    (Cert.Lib.PlainDot.sum_contr D hr hs hl0 hl1 hr0 hr1 (fun i => lhs i) (fun i => rhs i) p q)

end Dot

end Cert.Lib.RowRead

end
-- ==== Proof.NodeBlock.lean ====
/-
  One block of the kernel, entry by entry, at the ideal values (floats are extended reals).

  At a grid point the body holds four blocks: x0, 5000 rows of the features (each of 128 lanes); x1, the whole head
  (128 by 3); x2, the bias (3 entries); x3, the same 5000 rows of the targets (3 lanes).  It rounds x0 and x1 to a
  shorter format (no change on extended reals), multiplies them into a zero accumulator, adds the bias spread over the
  rows, subtracts x3, squares, sums the three lanes of every row, lays the 5000 sums out as a column and divides by
  the literal 3.0.  So row p of the column it stores is

      ( Σ_{j<3} ( Σ_{k<128} x0[p,k]·x1[k,j] + x2[j] − x3[p,j] )² ) / 3,

  which is the specification's per-node quantity as soon as the four blocks hold the matching rows of the arrays.
-/
import proofs.«159589_j46420006535686_2_alg».proof.Proof.Gen.KernelIdeal.Skeleton
import proofs.«159589_j46420006535686_2_alg».proof.Proof.Spec
import proofs.«159589_j46420006535686_2_alg».proof.Proof.LibRowRead
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.NodeValue

open Cert.KernelIdeal Cert.KernelIdeal.Gen Idealize.ShloMosaic Idealize.ShloMosaic.ValueIdx

/-! ## The product's dimension numbers: rows of the left operand against columns of the right -/

/-- The left operand is read in the result's row … -/
theorem dot_lhs_row (i : S5000x3.Idx) (q : dot_S5000x128_S128x3_S5000x3_1_0_0_1_n_n.contr.Idx) :
    (dot_S5000x128_S128x3_S5000x3_1_0_0_1_n_n.lhsIdx i q 0).val = (i 0).val := by
  unfold DotDims.lhsIdx
  rw [dif_neg (show ¬(0 : Fin S5000x128.rank) ∈ dot_S5000x128_S128x3_S5000x3_1_0_0_1_n_n.lhsBatch by decide),
    dif_pos (show (0 : Fin S5000x128.rank) ∈ dot_S5000x128_S128x3_S5000x3_1_0_0_1_n_n.lhsNonContracting by decide)]
  rfl
/-- … at the summation index; -/
theorem dot_lhs_lane (i : S5000x3.Idx) (q : dot_S5000x128_S128x3_S5000x3_1_0_0_1_n_n.contr.Idx) :
    (dot_S5000x128_S128x3_S5000x3_1_0_0_1_n_n.lhsIdx i q 1).val = (q ⟨0, by decide⟩).val :=
  dot_S5000x128_S128x3_S5000x3_1_0_0_1_n_n.lhsIdx_val_of_single rfl i q
/-- the right operand at the summation index … -/
theorem dot_rhs_row (i : S5000x3.Idx) (q : dot_S5000x128_S128x3_S5000x3_1_0_0_1_n_n.contr.Idx) :
    (dot_S5000x128_S128x3_S5000x3_1_0_0_1_n_n.rhsIdx i q 0).val = (q ⟨0, by decide⟩).val :=
  dot_S5000x128_S128x3_S5000x3_1_0_0_1_n_n.rhsIdx_val_of_single rfl i q
/-- … in the result's column. -/
theorem dot_rhs_lane (i : S5000x3.Idx) (q : dot_S5000x128_S128x3_S5000x3_1_0_0_1_n_n.contr.Idx) :
    (dot_S5000x128_S128x3_S5000x3_1_0_0_1_n_n.rhsIdx i q 1).val = (i 1).val := by
  unfold DotDims.rhsIdx
  rw [dif_neg (show ¬(1 : Fin S128x3.rank) ∈ dot_S5000x128_S128x3_S5000x3_1_0_0_1_n_n.rhsBatch by decide),
    dif_pos (show (1 : Fin S128x3.rank) ∈ dot_S5000x128_S128x3_S5000x3_1_0_0_1_n_n.rhsNonContracting by decide)]
  rfl

/-! ## The block's prediction error -/

/-- Coordinate j of the prediction error of row p of a block: (x0[p,·]·x1[·,j] + x2[j]) − x3[p,j]. -/
def blockDiff (x0 : Vec Ideal S5000x128 .f32) (x1 : Vec Ideal S128x3 .f32) (x2 : Vec Ideal S3 .f32) (x3 : Vec Ideal S5000x3 .f32)
    (p : Fin 5000) (j : Fin 3) : EReal :=
  ((∑ k : Fin 128, x0 (ix2 p k) * x1 (ix2 k j)) + x2 (ix1 j)) - x3 (ix2 p j)

/-- The product of the two rounded blocks into the zero accumulator, at (p, j): the sum over the 128 lanes. -/
theorem product_apply (x0 : Vec Ideal S5000x128 .f32) (x1 : Vec Ideal S128x3 .f32) (hb : FTy.bits .bf16 < FTy.bits .f32)
    (p : Fin 5000) (j : Fin 3) :
    matmul dot_S5000x128_S128x3_S5000x3_1_0_0_1_n_n none (truncf .bf16 x0 hb : FVec Ideal S5000x128 .bf16)
        (truncf .bf16 x1 hb : FVec Ideal S128x3 .bf16) (constant (F := Ideal) S5000x3 .f32 0x00000000#32) (ix2 p j)
      = ∑ k : Fin 128, x0 (ix2 p k) * x1 (ix2 k j) :=
  Cert.Lib.RowRead.matmul_zero_apply dot_S5000x128_S128x3_S5000x3_1_0_0_1_n_n rfl rfl dot_lhs_row dot_lhs_lane dot_rhs_row
    dot_rhs_lane none (truncf .bf16 x0 hb : FVec Ideal S5000x128 .bf16) (truncf .bf16 x1 hb : FVec Ideal S128x3 .bf16) p j

/-- The bias laid out as one row and spread over the 5000 rows, at (p, j): its entry j. -/
theorem bias_apply (x2 : Vec Ideal S3 .f32) (h1 : S3.ShapeCasts S1x3) (h2 : S1x3.Broadcasts S5000x3) (p : Fin 5000) (j : Fin 3) :
    broadcastTo S5000x3 (shapeCast S1x3 x2 h1) h2 (ix2 p j) = x2 (ix1 j) :=
  (broadcastTo_1b_ab_apply (shapeCast S1x3 x2 h1) h2 p j).trans (shapeCast_a_1a_apply x2 h1 (0 : Fin 1) j)

/-- Product plus bias minus targets, at (p, j), is the block's prediction error there. -/
theorem diff_apply (x0 : Vec Ideal S5000x128 .f32) (x1 : Vec Ideal S128x3 .f32) (x2 : Vec Ideal S3 .f32) (x3 : Vec Ideal S5000x3 .f32)
    (hb : FTy.bits .bf16 < FTy.bits .f32) (h1 : S3.ShapeCasts S1x3) (h2 : S1x3.Broadcasts S5000x3) (p : Fin 5000) (j : Fin 3) :
    subf (addf (matmul dot_S5000x128_S128x3_S5000x3_1_0_0_1_n_n none (truncf .bf16 x0 hb : FVec Ideal S5000x128 .bf16)
        (truncf .bf16 x1 hb : FVec Ideal S128x3 .bf16) (constant (F := Ideal) S5000x3 .f32 0x00000000#32))
        (broadcastTo S5000x3 (shapeCast S1x3 x2 h1) h2)) x3 (ix2 p j) = blockDiff x0 x1 x2 x3 p j := by
  show (matmul dot_S5000x128_S128x3_S5000x3_1_0_0_1_n_n none (truncf .bf16 x0 hb : FVec Ideal S5000x128 .bf16)
        (truncf .bf16 x1 hb : FVec Ideal S128x3 .bf16) (constant (F := Ideal) S5000x3 .f32 0x00000000#32) (ix2 p j)
      + broadcastTo S5000x3 (shapeCast S1x3 x2 h1) h2 (ix2 p j)) - x3 (ix2 p j) = _
  rw [product_apply, bias_apply]
  rfl

/-! ## The stored column -/

/-- ROW p OF THE STORED COLUMN: the three squared coordinates of the row's prediction error, summed, over the literal 3.0. -/
theorem payload_apply (x0 : Vec Ideal S5000x128 .f32) (x1 : Vec Ideal S128x3 .f32) (x2 : Vec Ideal S3 .f32) (x3 : Vec Ideal S5000x3 .f32)
    (p : Fin 5000) (u : Fin 1) :
    k0_pay1 (F := Ideal) x0 x1 x2 x3 (ix2 p u)
      = Ideal.div (∑ j : Fin 3, blockDiff x0 x1 x2 x3 p j * blockDiff x0 x1 x2 x3 p j) (Ideal.ofBits .f32 0x40400000#32) := by
  unfold k0_pay1
  refine congrArg (fun z => Ideal.div z (Ideal.ofBits .f32 0x40400000#32)) ?_
  refine (Cert.Lib.RowRead.shapeCast_a_a1_apply _ _ p u).trans ?_
  refine (Cert.Lib.RowRead.rowSum_apply _ _ _ _ _ p).trans ?_
  refine Finset.sum_congr rfl fun j _ => ?_
  exact congrArg₂ (· * ·) (diff_apply x0 x1 x2 x3 _ _ _ p j) (diff_apply x0 x1 x2 x3 _ _ _ p j)

/-- So when the four blocks hold row n of the features, the head, the bias and row n of the targets, row p of the
    stored column is the specification's quantity for node n. -/
theorem payload_eq_nodeErr (x0 : Vec Ideal S5000x128 .f32) (x1 : Vec Ideal S128x3 .f32) (x2 : Vec Ideal S3 .f32) (x3 : Vec Ideal S5000x3 .f32)
    (H : S100000x128.Idx → EReal) (W : S128x3.Idx → EReal) (b : S3.Idx → EReal) (T : S100000x3.Idx → EReal)
    (n : Fin 100000) (p : Fin 5000) (u : Fin 1)
    (h0 : ∀ k : Fin 128, x0 (ix2 p k) = H (ix2 n k)) (h1 : ∀ (k : Fin 128) (j : Fin 3), x1 (ix2 k j) = W (ix2 k j))
    (h2 : ∀ j : Fin 3, x2 (ix1 j) = b (ix1 j)) (h3 : ∀ j : Fin 3, x3 (ix2 p j) = T (ix2 n j)) :
    k0_pay1 (F := Ideal) x0 x1 x2 x3 (ix2 p u) = Cert.Spec.nodeErr H W b T n := by
  rw [payload_apply]
  unfold Cert.Spec.nodeErr
  have hd : ∀ j : Fin 3, blockDiff x0 x1 x2 x3 p j = Cert.Spec.diff H W b T n j := fun j => by
    unfold blockDiff Cert.Spec.diff
    rw [h2 j, h3 j]
    exact congrArg (fun z => z + b (ix1 j) - T (ix2 n j)) (Finset.sum_congr rfl fun k _ => by rw [h0 k, h1 k j])
  exact congrArg (fun z => Ideal.div z (Ideal.ofBits .f32 0x40400000#32)) (Finset.sum_congr rfl fun j _ => by rw [hd j])

end Cert.KernelIdeal.NodeValue

end
-- ==== Proof.NodeArray.lean ====
/-
  From the kernel's blocks to the whole output array, at the ideal values.

  The grid has 20 points.  At point t the features window holds rows 5000 t … 5000 t + 4999 of the feature array, the
  targets window the same rows of the target array, the head and bias windows all of their (small) arrays, and the
  output window is written back to the same rows of the output column.  Row p of what point t writes back is, by the
  block lemma, the specification's quantity for node 5000 t + p.  Every row r of the output column lies in exactly the
  block of point r / 5000, so after the last point the column holds, at every row r, the quantity of node r.
-/
import proofs.«159589_j46420006535686_2_alg».proof.Proof.Gen.KernelIdeal.Frame
import proofs.«159589_j46420006535686_2_alg».proof.Proof.NodeBlock
import Idealize.ShloMosaic.Lib.Pipeline.Value

noncomputable section

namespace Cert.KernelIdeal.NodeValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The output column as one function of the four argument arrays -/

/-- The column whose row r is the per-node quantity of node r. -/
def nodeColumn (H : S100000x128.Idx → EReal) (W : S128x3.Idx → EReal) (b : S3.Idx → EReal) (T : S100000x3.Idx → EReal) :
    S100000x1.Idx → EReal :=
  fun i => Cert.Spec.nodeErr H W b T ⟨(i 0).val, idx2_lt0 i⟩

/-! ## Which rows each window holds at a point -/

theorem zero_offsets2 : (![0, 0] : Fin 2 → Nat) = fun _ => 0 := funext fun a => by fin_cases a <;> rfl
theorem zero_offsets1 : (![0] : Fin 1 → Nat) = fun _ => 0 := funext fun a => by fin_cases a <;> rfl

/-- The windows' block indices, decided over the 20 points: the features, targets and output windows are at row block t,
    column block 0; the head and the bias stay at block 0. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of the features block at point t is row 5000 t + p of the feature array. -/
theorem features_block (c : Dev nD) (t : Fin cfg0.N) (p : Fin 5000) (k : Fin 128) (n : Fin 100000)
    (hn : n.val = 5000 * t.val + p.val) :
    (iblk m c 0 t : Vec Ideal S5000x128 .f32) (ix2 p k) = (V m c main_arg0 : S100000x128.Idx → EReal) (ix2 n k) := by
  obtain ⟨e0, e1, -⟩ := block_index t
  show V m c main_arg0 (((cfg0.win 0).blk t).view.emb (ix2 p k)) = V m c main_arg0 (ix2 n k)
  refine congrArg (V m c main_arg0) (funext fun a => Fin.ext ?_)
  match a with
  | ⟨0, _⟩ => show win0_0.index t (0 : Fin 2) * 5000 + 1 * p.val = n.val; rw [e0, hn]; omega
  | ⟨1, _⟩ => show win0_0.index t (1 : Fin 2) * 128 + 1 * k.val = k.val; rw [e1]; omega

/-- The head block at any point is the head array. -/
theorem head_block (c : Dev nD) (t : Fin cfg0.N) (k : Fin 128) (j : Fin 3) :
    (iblk m c 1 t : Vec Ideal S128x3 .f32) (ix2 k j) = (V m c main_arg1 : S128x3.Idx → EReal) (ix2 k j) := by
  obtain ⟨-, -, e0, e1, -⟩ := block_index t
  show V m c main_arg1 (((cfg0.win 1).blk t).view.emb (ix2 k j)) = V m c main_arg1 (ix2 k j)
  refine congrArg (V m c main_arg1) (funext fun a => Fin.ext ?_)
  match a with
  | ⟨0, _⟩ => show win0_1.index t (0 : Fin 2) * 128 + 1 * k.val = k.val; rw [e0]; omega
  | ⟨1, _⟩ => show win0_1.index t (1 : Fin 2) * 3 + 1 * j.val = j.val; rw [e1]; omega

/-- The bias block at any point is the bias array. -/
theorem bias_block (c : Dev nD) (t : Fin cfg0.N) (j : Fin 3) :
    (iblk m c 2 t : Vec Ideal S3 .f32) (ix1 j) = (V m c main_arg2 : S3.Idx → EReal) (ix1 j) := by
  obtain ⟨-, -, -, -, e0, -⟩ := block_index t
  show V m c main_arg2 (((cfg0.win 2).blk t).view.emb (ix1 j)) = V m c main_arg2 (ix1 j)
  refine congrArg (V m c main_arg2) (funext fun a => Fin.ext ?_)
  match a with
  | ⟨0, _⟩ => show win0_2.index t (0 : Fin 1) * 3 + 1 * j.val = j.val; rw [e0]; omega

/-- Row p of the targets block at point t is row 5000 t + p of the target array. -/
theorem targets_block (c : Dev nD) (t : Fin cfg0.N) (p : Fin 5000) (j : Fin 3) (n : Fin 100000)
    (hn : n.val = 5000 * t.val + p.val) :
    (iblk m c 3 t : Vec Ideal S5000x3 .f32) (ix2 p j) = (V m c main_arg3 : S100000x3.Idx → EReal) (ix2 n j) := by
  obtain ⟨-, -, -, -, -, e0, e1, -⟩ := block_index t
  show V m c main_arg3 (((cfg0.win 3).blk t).view.emb (ix2 p j)) = V m c main_arg3 (ix2 n j)
  refine congrArg (V m c main_arg3) (funext fun a => Fin.ext ?_)
  match a with
  | ⟨0, _⟩ => show win0_3.index t (0 : Fin 2) * 5000 + 1 * p.val = n.val; rw [e0, hn]; omega
  | ⟨1, _⟩ => show win0_3.index t (1 : Fin 2) * 3 + 1 * j.val = j.val; rw [e1]; omega

/-! ## What a point writes back -/

/-- The stored column read at any index of its shape, from the block lemma at the index's coordinates. -/
theorem stored_eq_nodeErr (x0 : Vec Ideal S5000x128 .f32) (x1 : Vec Ideal S128x3 .f32) (x2 : Vec Ideal S3 .f32) (x3 : Vec Ideal S5000x3 .f32)
    (H : S100000x128.Idx → EReal) (W : S128x3.Idx → EReal) (b : S3.Idx → EReal) (T : S100000x3.Idx → EReal)
    (n : Fin 100000) (y : S5000x1.Idx)
    (h0 : ∀ k : Fin 128, x0 (ix2 (⟨(y 0).val, idx2_lt0 y⟩ : Fin 5000) k) = H (ix2 n k))
    (h1 : ∀ (k : Fin 128) (j : Fin 3), x1 (ix2 k j) = W (ix2 k j))
    (h2 : ∀ j : Fin 3, x2 (ix1 j) = b (ix1 j))
    (h3 : ∀ j : Fin 3, x3 (ix2 (⟨(y 0).val, idx2_lt0 y⟩ : Fin 5000) j) = T (ix2 n j)) :
    k0_pay1 (F := Ideal) x0 x1 x2 x3 y = Cert.Spec.nodeErr H W b T n := by
  have hy : y = ix2 (⟨(y 0).val, idx2_lt0 y⟩ : Fin 5000) (⟨(y 1).val, idx2_lt1 y⟩ : Fin 1) :=
    funext fun a => by match a with | ⟨0, _⟩ => rfl | ⟨1, _⟩ => rfl
  exact (congrArg (k0_pay1 (F := Ideal) x0 x1 x2 x3) hy).trans
    (payload_eq_nodeErr x0 x1 x2 x3 H W b T n ⟨(y 0).val, idx2_lt0 y⟩ ⟨(y 1).val, idx2_lt1 y⟩ h0 h1 h2 h3)

/-- WHAT POINT t WRITES BACK is block t of the column of per-node quantities of the argument arrays as the region finds
    them. -/
theorem flushed_eq (c : Dev nD) (t : Fin cfg0.N) :
    (dats (F := Ideal) m 0 c).flushed 4 t = ((cfg0.win 4).blk t).view.read (Elt Ideal)
      (nodeColumn (V m c main_arg0) (V m c main_arg1) (V m c main_arg2) (V m c main_arg3)) := by
  show (cfg0.win 4).cut (grid0.coords t) ((dats (F := Ideal) m 0 c).after 4 t) = _
  rw [after0_4]
  unfold out0_4
  rw [View.canon_unit_zero zero_offsets2]
  simp only [View.ld_unit_zero (S := S5000x128) zero_offsets2, View.ld_unit_zero (S := S128x3) zero_offsets2,
    View.ld_unit_zero (S := S3) zero_offsets1, View.ld_unit_zero (S := S5000x3) zero_offsets2]
  obtain ⟨-, -, -, -, -, -, -, e0, e1⟩ := block_index t
  funext y
  show k0_pay1 (F := Ideal) (iblk m c 0 t) (iblk m c 1 t) (iblk m c 2 t) (iblk m c 3 t) y
    = nodeColumn (V m c main_arg0) (V m c main_arg1) (V m c main_arg2) (V m c main_arg3) (((cfg0.win 4).blk t).view.emb y)
  have hy : (y 0).val < 5000 := (y 0).isLt
  have hrow : ((((cfg0.win 4).blk t).view.emb y) 0).val = 5000 * t.val + (y 0).val := by
    show win0_4.index t (0 : Fin 2) * 5000 + 1 * (y 0).val = _
    rw [e0]; omega
  unfold nodeColumn
  exact stored_eq_nodeErr (iblk m c 0 t) (iblk m c 1 t) (iblk m c 2 t) (iblk m c 3 t)
    (V m c main_arg0) (V m c main_arg1) (V m c main_arg2) (V m c main_arg3) _ y
    (fun k => features_block m c t _ k _ hrow) (fun k j => head_block m c t k j) (fun j => bias_block m c t j)
    (fun j => targets_block m c t _ j _ hrow)

/-! ## The blocks cover the column -/

/-- A row of the column is in point t's block iff each coordinate is in the block's range on its axis. -/
theorem mem_block (t : Fin cfg0.N) (i : S100000x1.Idx) :
    i ∈ ((cfg0.win 4).blk t).view.set ↔ ∀ a : Fin 2, win0_4.index t a * S5000x1.size a ≤ (i a).val
      ∧ (i a).val < win0_4.index t a * S5000x1.size a + S5000x1.size a := by
  show i ∈ ((View.whole main_v0).slice (win0_4.rect t)).set ↔ _
  rw [View.set_slice_whole, Rect.mem_set_unit]
  exact Iff.rfl

/-- Row r of the column is in the block of point r / 5000, and every point writes its block back. -/
theorem covered (i : S100000x1.Idx) :
    ∃ t : Fin cfg0.N, (cfg0.win 4).flush t = true ∧ i ∈ ((cfg0.win 4).blk t).view.set := by
  have hN : grid0.N = 20 := N_0
  have hi0 : (i 0).val < 100000 := idx2_lt0 i
  have hi1 : (i 1).val < 1 := idx2_lt1 i
  obtain ⟨t, ht⟩ : ∃ t : Fin cfg0.N, t.val = (i 0).val / 5000 :=
    ⟨⟨(i 0).val / 5000, by show (i 0).val / 5000 < grid0.N; rw [hN]; omega⟩, rfl⟩
  obtain ⟨-, -, -, -, -, -, -, e0, e1⟩ := block_index t
  refine ⟨t, flush0_4 t, ?_⟩
  rw [mem_block]
  intro a
  match a with
  | ⟨0, _⟩ =>
    show win0_4.index t (0 : Fin 2) * 5000 ≤ (i 0).val ∧ (i 0).val < win0_4.index t (0 : Fin 2) * 5000 + 5000
    rw [e0, ht]; omega
  | ⟨1, _⟩ =>
    show win0_4.index t (1 : Fin 2) * 1 ≤ (i 1).val ∧ (i 1).val < win0_4.index t (1 : Fin 2) * 1 + 1
    rw [e1]; omega

/-! ## The output array after the run -/

/-- THE OUTPUT ARRAY after the last point is the column of per-node quantities. -/
theorem final_array (c : Dev nD) :
    (dats (F := Ideal) m 0 c).arrAt 4 cfg0.N
      = nodeColumn (V m c main_arg0) (V m c main_arg1) (V m c main_arg2) (V m c main_arg3) :=
  (dats (F := Ideal) m 0 c).arrAt_eq_of_cover 4
    (nodeColumn (V m c main_arg0) (V m c main_arg1) (V m c main_arg2) (V m c main_arg3))
    (fun t _ => flushed_eq m c t) covered

/-- Read at row n, column 0: the per-node quantity of node n. -/
theorem final_apply (c : Dev nD) (n : Fin 100000) :
    ((dats (F := Ideal) m 0 c).arrAt 4 cfg0.N : S100000x1.Idx → EReal) (ix2 n (0 : Fin 1))
      = Cert.Spec.nodeErr (V m c main_arg0) (V m c main_arg1) (V m c main_arg2) (V m c main_arg3) n := by
  rw [final_array]
  rfl

end Cert.KernelIdeal.NodeValue

end
-- ==== Proof.LibScatterAddRead.lean ====
import Idealize.ShloMosaic.PureOps.Ideal
import Idealize.ShloMosaic.Lib.ValueIdx

/-!
# Reading the host's accumulating scatter at an index (ideal instance)

At the ideal instance the host's `stablehlo.scatter` with an `add` body is, at each operand index, the operand's
element plus the sum of the update elements whose result index is that operand index. For the two scatters that
add `E` rows, each addressed by one signed row number, into an operand of `M` rows — rows of one element, and rows
of two elements — the result index of update row `e` is operand row `(idx e 0).toInt` when that is a row of the
operand, and the update is dropped otherwise. Read at row `c` (and column `q`), the scatter is therefore the
operand's element plus the sum over the update rows `e` whose row number is `c` of the update's element at `e`
(and column `q`): the two-column scatter read at column `q` is the one-column scatter of that column.
-/

open scoped BigOperators

namespace Cert.Lib.ScatterAddRead

open Idealize.ShloMosaic Idealize.ShloMosaic.ValueIdx

/-! ## The result index, for any dimension numbers -/

/-- An update index lands at operand index `i` exactly when, on every operand axis, the signed window start plus the
    window coordinate is `i`'s coordinate (an update that leaves the operand on some axis lands nowhere, and no
    coordinate of `i` is negative or reaches the axis's size). -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    constructor
    · intro hs a
      have hi := Option.some.inj hs
      have := congrArg (fun f => (f a).val) hi
      simp only at this
      have := h a
      omega
    · intro hall
      congr 1
      funext a
      refine Fin.ext ?_
      have := hall a
      show (d.start j idx a + (d.window j a : ℤ)).toNat = (i a).val
      omega
  · rename_i h
    constructor
    · intro hs; cases hs
    · intro hall
      exfalso
      apply h
      intro a
      have := hall a
      have := (i a).isLt
      omega

/-! ## A rank-1 index set is its coordinate range -/

/-- A rank-1 index is its one coordinate … -/
def idxEquiv1 {n : Nat} : (⟨1, ![n]⟩ : Shape).Idx ≃ Fin n where
  toFun i := i 0
  invFun a := ix1 a
  left_inv i := (eq_ix1 i).symm
  right_inv _ := rfl

/-- … so a sum over the rank-1 index set is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-! ## Rows of one element: operand `[M]`, scatter indices `[E, 1]`, updates `[E]` -/

section One
variable {M E w : Nat} (d : ScatterDims ⟨1, ![M]⟩ ⟨2, ![E, 1]⟩ ⟨1, ![E]⟩)
  (h1 : d.updateWindowDims = []) (h2 : d.insertedWindowDims = [0]) (h3 : d.scatterDimsToOperandDims = [0])
  (h4 : d.indexVectorDim = 1)
include h1 h2 h3 h4

/-- The window of update `j` starts, on the operand's one axis, at the signed scatter index `idx[j, 0]`. -/
theorem start_one (idx : IVec ⟨2, ![E, 1]⟩ w) (j : (⟨1, ![E]⟩ : Shape).Idx) :
    d.start j idx 0 = (idx (ix2 (j 0) 0)).toInt := by
  obtain ⟨uw, iw, sd, iv, wf⟩ := d
  simp only at h1 h2 h3 h4
  subst h1 h2 h3 h4
  unfold ScatterDims.start
  rw [dif_pos (List.mem_singleton.mpr rfl)]
  congr 2
  funext b
  refine Fin.ext ?_
  match b with
  | ⟨0, _⟩ => rfl
  | ⟨1, _⟩ => rfl

/-- The operand's one axis is an inserted window axis: the window coordinate on it is `0`. -/
theorem window_one (j : (⟨1, ![E]⟩ : Shape).Idx) : d.window j 0 = 0 := by
  obtain ⟨uw, iw, sd, iv, wf⟩ := d
  simp only at h1 h2 h3 h4
  subst h1 h2 h3 h4
  unfold ScatterDims.window
  rw [dif_neg (fun h => by simpa using (List.mem_filter.1 h).2)]

/-- Update `j` lands at operand element `c` exactly when its signed scatter index is `c`. -/
theorem resultIdx?_one_iff (idx : IVec ⟨2, ![E, 1]⟩ w) (j : (⟨1, ![E]⟩ : Shape).Idx) (c : Fin M) :
    d.resultIdx? j idx = some (ix1 c) ↔ (idx (ix2 (j 0) 0)).toInt = (c.val : ℤ) := by
  rw [resultIdx?_eq_some_iff]
  constructor
  · intro h
    have h0 := h 0
    rw [start_one d h1 h2 h3 h4, window_one d h1 h2 h3 h4, Nat.cast_zero, add_zero] at h0
    exact h0
  · intro h a
    obtain rfl : a = 0 := Subsingleton.elim _ _
    rw [start_one d h1 h2 h3 h4, window_one d h1 h2 h3 h4, Nat.cast_zero, add_zero]
    exact h

/-- THE ONE-COLUMN SCATTER READ AT ELEMENT `c`: the operand's element plus the sum, over the update rows whose signed
    scatter index is `c`, of the update's element. -/
theorem scatterAdd_one_apply {φ : FTy} (x : FVec Ideal ⟨1, ![M]⟩ φ) (idx : IVec ⟨2, ![E, 1]⟩ w)
    (upd : FVec Ideal ⟨1, ![E]⟩ φ) (c : Fin M) :
    Host.scatterAdd (F := Ideal) d x idx upd (ix1 c)
      = x (ix1 c) + ∑ e : Fin E, if (idx (ix2 e 0)).toInt = (c.val : ℤ) then upd (ix1 e) else 0 := by
  show x (ix1 c) + ∑ j ∈ Finset.univ.filter (fun j => d.resultIdx? j idx = some (ix1 c)), upd j = _
  congr 1
  rw [Finset.sum_filter, sum_idx1]
  refine Finset.sum_congr rfl fun e _ => ?_
  exact if_congr (resultIdx?_one_iff d h1 h2 h3 h4 idx (ix1 e) c) rfl rfl

end One

/-! ## Rows of two elements: operand `[M, 2]`, scatter indices `[E, 1]`, updates `[E, 2]` -/

section Two
variable {M E w : Nat} (d : ScatterDims ⟨2, ![M, 2]⟩ ⟨2, ![E, 1]⟩ ⟨2, ![E, 2]⟩)
  (h1 : d.updateWindowDims = [1]) (h2 : d.insertedWindowDims = [0]) (h3 : d.scatterDimsToOperandDims = [0])
  (h4 : d.indexVectorDim = 1)
include h1 h2 h3 h4

/-- The window of update `j` starts, on the operand's row axis, at the signed scatter index `idx[j 0, 0]`. -/
theorem start_two_row (idx : IVec ⟨2, ![E, 1]⟩ w) (j : (⟨2, ![E, 2]⟩ : Shape).Idx) :
    d.start j idx 0 = (idx (ix2 (j 0) 0)).toInt := by
  obtain ⟨uw, iw, sd, iv, wf⟩ := d
  simp only at h1 h2 h3 h4
  subst h1 h2 h3 h4
  unfold ScatterDims.start
  rw [dif_pos (List.mem_singleton.mpr rfl)]
  congr 2
  funext b
  refine Fin.ext ?_
  match b with
  | ⟨0, _⟩ => rfl
  | ⟨1, _⟩ => rfl

/-- No scatter index names the operand's column axis: the window starts at `0` there. -/
theorem start_two_col (idx : IVec ⟨2, ![E, 1]⟩ w) (j : (⟨2, ![E, 2]⟩ : Shape).Idx) : d.start j idx 1 = 0 := by
  obtain ⟨uw, iw, sd, iv, wf⟩ := d
  simp only at h1 h2 h3 h4
  subst h1 h2 h3 h4
  unfold ScatterDims.start
  rw [dif_neg (fun h => by simp at h)]

/-- The operand's row axis is an inserted window axis: the window coordinate on it is `0`. -/
theorem window_two_row (j : (⟨2, ![E, 2]⟩ : Shape).Idx) : d.window j 0 = 0 := by
  obtain ⟨uw, iw, sd, iv, wf⟩ := d
  simp only at h1 h2 h3 h4
  subst h1 h2 h3 h4
  unfold ScatterDims.window
  rw [dif_neg (fun h => by simpa using (List.mem_filter.1 h).2)]

/-- The operand's column axis takes the update's window axis: the window coordinate on it is the update's column. -/
theorem window_two_col (j : (⟨2, ![E, 2]⟩ : Shape).Idx) : d.window j 1 = (j 1).val := by
  obtain ⟨uw, iw, sd, iv, wf⟩ := d
  simp only at h1 h2 h3 h4
  subst h1 h2 h3 h4
  unfold ScatterDims.window
  have hm : (1 : Fin 2) ∈ (⟨[1], [0], [0], 1, wf⟩ : ScatterDims ⟨2, ![M, 2]⟩ ⟨2, ![E, 1]⟩ ⟨2, ![E, 2]⟩).sKept :=
    List.mem_filter.2 ⟨List.mem_finRange _, by simp⟩
  rw [dif_pos hm]
  rfl

/-- Update `j` lands at operand element `(c, q)` exactly when its row's signed scatter index is `c` and its column is
    `q`. -/
theorem resultIdx?_two_iff (idx : IVec ⟨2, ![E, 1]⟩ w) (j : (⟨2, ![E, 2]⟩ : Shape).Idx) (c : Fin M) (q : Fin 2) :
    d.resultIdx? j idx = some (ix2 c q) ↔ (idx (ix2 (j 0) 0)).toInt = (c.val : ℤ) ∧ j 1 = q := by
  rw [resultIdx?_eq_some_iff]
  constructor
  · intro h
    have h0 := h 0
    have hq := h 1
    rw [start_two_row d h1 h2 h3 h4, window_two_row d h1 h2 h3 h4, Nat.cast_zero, add_zero] at h0
    rw [start_two_col d h1 h2 h3 h4, window_two_col d h1 h2 h3 h4, zero_add] at hq
    exact ⟨h0, Fin.ext (Nat.cast_injective (R := ℤ) hq)⟩
  · rintro ⟨h0, hq⟩
    refine Fin.forall_fin_two.2 ⟨?_, ?_⟩
    · rw [start_two_row d h1 h2 h3 h4, window_two_row d h1 h2 h3 h4, Nat.cast_zero, add_zero]
      exact h0
    · rw [start_two_col d h1 h2 h3 h4, window_two_col d h1 h2 h3 h4, zero_add, hq]

/-- THE TWO-COLUMN SCATTER READ AT ELEMENT `(c, q)`: the operand's element plus the sum, over the update rows whose
    signed scatter index is `c`, of the update's element in column `q` — the one-column scatter of column `q`. -/
theorem scatterAdd_two_apply {φ : FTy} (x : FVec Ideal ⟨2, ![M, 2]⟩ φ) (idx : IVec ⟨2, ![E, 1]⟩ w)
    (upd : FVec Ideal ⟨2, ![E, 2]⟩ φ) (c : Fin M) (q : Fin 2) :
    Host.scatterAdd (F := Ideal) d x idx upd (ix2 c q)
      = x (ix2 c q) + ∑ e : Fin E, if (idx (ix2 e 0)).toInt = (c.val : ℤ) then upd (ix2 e q) else 0 := by
  show x (ix2 c q) + ∑ j ∈ Finset.univ.filter (fun j => d.resultIdx? j idx = some (ix2 c q)), upd j = _
  congr 1
  rw [Finset.sum_filter, sum_idx2]
  refine Finset.sum_congr rfl fun e _ => ?_
  have hb : ∀ b : Fin 2, (if d.resultIdx? (ix2 e b) idx = some (ix2 c q) then upd (ix2 e b) else 0)
      = if b = q then (if (idx (ix2 e 0)).toInt = (c.val : ℤ) then upd (ix2 e q) else 0) else 0 := by
    intro b
    have hiff := resultIdx?_two_iff d h1 h2 h3 h4 idx (ix2 e b) c q
    by_cases hbq : b = q
    · subst hbq
      rw [if_pos rfl]
      exact if_congr (hiff.trans (and_iff_left rfl)) rfl rfl
    · rw [if_neg hbq, if_neg]
      intro h
      exact hbq (hiff.1 h).2
  rw [Finset.sum_congr rfl (fun b _ => hb b), Finset.sum_ite_eq' Finset.univ q, if_pos (Finset.mem_univ q)]

end Two

/-! ## The two-column scatter, column by column -/

/-- The two-column scatter read at `(c, q)` is the one-column scatter read at `c` of column `q`: of an operand whose
    element at `c` is the two-column operand's at `(c, q)`, of updates whose element at `e` is the two-column
    updates' at `(e, q)`, and of scatter indices with the same signed row numbers. -/
theorem scatterAdd_two_eq_one {M E w w' : Nat} {φ φ' : FTy}
    (d2 : ScatterDims ⟨2, ![M, 2]⟩ ⟨2, ![E, 1]⟩ ⟨2, ![E, 2]⟩)
    (h21 : d2.updateWindowDims = [1]) (h22 : d2.insertedWindowDims = [0]) (h23 : d2.scatterDimsToOperandDims = [0])
    (h24 : d2.indexVectorDim = 1)
    (d1 : ScatterDims ⟨1, ![M]⟩ ⟨2, ![E, 1]⟩ ⟨1, ![E]⟩)
    (h11 : d1.updateWindowDims = []) (h12 : d1.insertedWindowDims = [0]) (h13 : d1.scatterDimsToOperandDims = [0])
    (h14 : d1.indexVectorDim = 1)
    (x2 : FVec Ideal ⟨2, ![M, 2]⟩ φ) (idx2 : IVec ⟨2, ![E, 1]⟩ w) (upd2 : FVec Ideal ⟨2, ![E, 2]⟩ φ)
    (x1 : FVec Ideal ⟨1, ![M]⟩ φ') (idx1 : IVec ⟨2, ![E, 1]⟩ w') (upd1 : FVec Ideal ⟨1, ![E]⟩ φ')
    (c : Fin M) (q : Fin 2)
    (hx : x2 (ix2 c q) = x1 (ix1 c))
    (hidx : ∀ e : Fin E, (idx2 (ix2 e 0)).toInt = (idx1 (ix2 e 0)).toInt)
    (hupd : ∀ e : Fin E, upd2 (ix2 e q) = upd1 (ix1 e)) :
    Host.scatterAdd (F := Ideal) d2 x2 idx2 upd2 (ix2 c q) = Host.scatterAdd (F := Ideal) d1 x1 idx1 upd1 (ix1 c) := by
  refine (scatterAdd_two_apply d2 h21 h22 h23 h24 x2 idx2 upd2 c q).trans ?_
  refine Eq.trans ?_ (scatterAdd_one_apply d1 h11 h12 h13 h14 x1 idx1 upd1 c).symm
  rw [hx]
  congr 1
  refine Finset.sum_congr rfl fun e _ => ?_
  rw [hidx e, hupd e]

end Cert.Lib.ScatterAddRead
-- ==== Proof.LibPairColumns.lean ====
/-
  Two columns laid side by side, read at an index.

  Concatenating two [n, 1] columns along axis 1 gives an [n, 2] array whose entry (i, 0) is the first column's entry of
  row i and whose entry (i, 1) is the second column's entry of row i: position 0 on the joined axis falls in the first
  piece, position 1 is past the first piece's extent of one and is the second piece's position 0.
-/
import Idealize.ShloMosaic.Lib.Pipeline.Value
import Idealize.ShloMosaic.Lib.ValueIdx

noncomputable section

namespace Cert.Lib.PairColumns

open Idealize.ShloMosaic Idealize.ShloMosaic.ValueIdx

variable {α : Type} {n : Nat}

/-- Entry (i, 0) of the pair is the first column's entry of row i. -/
theorem pair_col0 (x₁ x₂ : (⟨2, ![n, 1]⟩ : Shape).Idx → α)
    (h : Shape.Concatenates [(⟨2, ![n, 1]⟩ : Shape), ⟨2, ![n, 1]⟩] ⟨2, ![n, 2]⟩ 1) (i : Fin n) :
    concatenate (⟨2, ![n, 2]⟩ : Shape) 1 [⟨⟨2, ![n, 1]⟩, x₁⟩, ⟨⟨2, ![n, 1]⟩, x₂⟩] h (ix2 i (0 : Fin 2)) = x₁ (ix2 i (0 : Fin 1)) := by
  refine concatenate_pair_apply_left (1 : Fin 2) x₁ x₂ h (ix2 i (0 : Fin 2)) rfl (ix2 i (0 : Fin 1)) fun b => ?_
  match b with
  | ⟨0, _⟩ => rfl
  | ⟨1, _⟩ => rfl

/-- Entry (i, 1) of the pair is the second column's entry of row i. -/
theorem pair_col1 (x₁ x₂ : (⟨2, ![n, 1]⟩ : Shape).Idx → α)
    (h : Shape.Concatenates [(⟨2, ![n, 1]⟩ : Shape), ⟨2, ![n, 1]⟩] ⟨2, ![n, 2]⟩ 1) (i : Fin n) :
    concatenate (⟨2, ![n, 2]⟩ : Shape) 1 [⟨⟨2, ![n, 1]⟩, x₁⟩, ⟨⟨2, ![n, 1]⟩, x₂⟩] h (ix2 i (1 : Fin 2)) = x₂ (ix2 i (0 : Fin 1)) := by
  refine concatenate_pair_apply_right (1 : Fin 2) x₁ x₂ h (ix2 i (1 : Fin 2)) rfl rfl (ix2 i (0 : Fin 1)) (fun b hb => ?_) rfl
  match b with
  | ⟨0, _⟩ => rfl
  | ⟨1, _⟩ => exact absurd rfl hb

end Cert.Lib.PairColumns

end
-- ==== Proof.LibKeepdims.lean ====
/-
  A vector seen as a column, and as a row.

  A vector y of length n can be laid out as a column [n, 1] or as a row [1, n] in two ways: by reading its n entries in
  row-major order under the new shape (a reshape), or by declaring which axis of the new shape the vector's axis goes to
  and repeating it along the other (a broadcast along a named axis; here the other axis has length one, so nothing is
  repeated). Both give the array whose entry (p, 0), resp. (0, q), is y(p), resp. y(q):

    * in a column [n, 1] the entry (p, u) has u = 0 and row-major position p * 1 + 0 = p, which is the position of y(p);
      the broadcast sends the vector's axis to axis 0 and so reads y at the coordinate p;
    * in a row [1, n] the entry (r, q) has r = 0 and row-major position 0 * n + q = q, the position of y(q); the broadcast
      sends the vector's axis to axis 1 and so reads y at the coordinate q.

  When n = 1 the broadcast reads coordinate 0 whatever the index, and the only coordinate below 1 is 0, so the two agree
  in that case as well. The entries may be of any type.
-/
import Idealize.ShloMosaic.Lib.ValueIdx
import Idealize.ShloMosaic.Lib.Pipeline.Value

noncomputable section

namespace Cert.Lib.Keepdims

open Idealize.ShloMosaic Idealize.ShloMosaic.ValueIdx

variable {α : Type}

/-- A vector [n] reshaped to a column [n, 1] reads, at (p, u), the vector at p. -/
theorem shapeCast_column_apply {n : ℕ} (y : (⟨1, ![n]⟩ : Shape).Idx → α) (h : (⟨1, ![n]⟩ : Shape).ShapeCasts ⟨2, ![n, 1]⟩)
    (j : (⟨2, ![n, 1]⟩ : Shape).Idx) : shapeCast (⟨2, ![n, 1]⟩ : Shape) y h j = y (ix1 (j 0)) :=
  shapeCast_apply y h j (ix1 (j 0)) (by
    have hu : (j 1).val = 0 := by have := idx2_lt1 j; omega
    rw [Shape.rowMajor_val_one, Shape.rowMajor_val_two]
    show (j 0).val = (j 0).val * 1 + (j 1).val
    rw [hu, Nat.mul_one, Nat.add_zero])

/-- A vector [n] broadcast along axis 0 of a column [n, 1] reads, at (p, u), the vector at p. -/
theorem broadcastInDim_column_apply {n : ℕ} (y : (⟨1, ![n]⟩ : Shape).Idx → α)
    (hb : (⟨1, ![n]⟩ : Shape).BroadcastsInDim (⟨2, ![n, 1]⟩ : Shape) (![0] : Fin 1 → Fin (⟨2, ![n, 1]⟩ : Shape).rank))
    (j : (⟨2, ![n, 1]⟩ : Shape).Idx) : broadcastInDim (⟨2, ![n, 1]⟩ : Shape) ![0] hb y j = y (ix1 (j 0)) :=
  broadcastInDim_apply _ hb y j (ix1 (j 0)) (fun a => match a with
    | ⟨0, _⟩ => by
      show (j 0).val = if n = 1 then 0 else (j 0).val
      split
      · have := idx2_lt0 j; omega
      · rfl)

/-- The column made from a vector by a reshape is the column made by a broadcast along axis 0. -/
theorem column_eq {n : ℕ} (y : (⟨1, ![n]⟩ : Shape).Idx → α) (h : (⟨1, ![n]⟩ : Shape).ShapeCasts ⟨2, ![n, 1]⟩)
    (hb : (⟨1, ![n]⟩ : Shape).BroadcastsInDim (⟨2, ![n, 1]⟩ : Shape) (![0] : Fin 1 → Fin (⟨2, ![n, 1]⟩ : Shape).rank)) :
    shapeCast (⟨2, ![n, 1]⟩ : Shape) y h = broadcastInDim (⟨2, ![n, 1]⟩ : Shape) ![0] hb y :=
  funext fun j => (shapeCast_column_apply y h j).trans (broadcastInDim_column_apply y hb j).symm

/-- A vector [n] reshaped to a row [1, n] reads, at (r, q), the vector at q. -/
theorem shapeCast_row_apply {n : ℕ} (y : (⟨1, ![n]⟩ : Shape).Idx → α) (h : (⟨1, ![n]⟩ : Shape).ShapeCasts ⟨2, ![1, n]⟩)
    (j : (⟨2, ![1, n]⟩ : Shape).Idx) : shapeCast (⟨2, ![1, n]⟩ : Shape) y h j = y (ix1 (j 1)) :=
  shapeCast_apply y h j (ix1 (j 1)) (by
    have hu : (j 0).val = 0 := by have := idx2_lt0 j; omega
    rw [Shape.rowMajor_val_one, Shape.rowMajor_val_two]
    show (j 1).val = (j 0).val * n + (j 1).val
    rw [hu, Nat.zero_mul, Nat.zero_add])

/-- A vector [n] broadcast along axis 1 of a row [1, n] reads, at (r, q), the vector at q. -/
theorem broadcastInDim_row_apply {n : ℕ} (y : (⟨1, ![n]⟩ : Shape).Idx → α)
    (hb : (⟨1, ![n]⟩ : Shape).BroadcastsInDim (⟨2, ![1, n]⟩ : Shape) (![1] : Fin 1 → Fin (⟨2, ![1, n]⟩ : Shape).rank))
    (j : (⟨2, ![1, n]⟩ : Shape).Idx) : broadcastInDim (⟨2, ![1, n]⟩ : Shape) ![1] hb y j = y (ix1 (j 1)) :=
  broadcastInDim_apply _ hb y j (ix1 (j 1)) (fun a => match a with
    | ⟨0, _⟩ => by
      show (j 1).val = if n = 1 then 0 else (j 1).val
      split
      · have := idx2_lt1 j; omega
      · rfl)

/-- The row made from a vector by a reshape is the row made by a broadcast along axis 1. -/
theorem row_eq {n : ℕ} (y : (⟨1, ![n]⟩ : Shape).Idx → α) (h : (⟨1, ![n]⟩ : Shape).ShapeCasts ⟨2, ![1, n]⟩)
    (hb : (⟨1, ![n]⟩ : Shape).BroadcastsInDim (⟨2, ![1, n]⟩ : Shape) (![1] : Fin 1 → Fin (⟨2, ![1, n]⟩ : Shape).rank)) :
    shapeCast (⟨2, ![1, n]⟩ : Shape) y h = broadcastInDim (⟨2, ![1, n]⟩ : Shape) ![1] hb y :=
  funext fun j => (shapeCast_row_apply y h j).trans (broadcastInDim_row_apply y hb j).symm

end Cert.Lib.Keepdims

end
-- ==== Proof.LibRowGather.lean ====
/-
  A gather of whole rows, read at an index.

  What `x[idx]` lowers to for a table `x` of `N` rows and a vector of `B` row numbers held as a column `[B, 1]`: a
  gather with the row axis collapsed, the start index naming that axis only, and every other axis of the table taken
  whole. Result row `p` is the table's row `row idx p`: the `p`-th start index read as a signed integer and clamped into
  `[0, N - 1]` (a gather clamps every start index so that the slice fits), and inside the row nothing moves. Stated for
  tables of rank 2 (`[N, C]`, result `[B, C]`) and of rank 3 (`[N, C, D]`, result `[B, C, D]`), for entries of any type.
  The dimension records are given as structure literals over the shapes' extents, so a program's printed record of the
  same fields is one of them by unfolding.
-/
import Idealize.ShloMosaic.PureOps.Ideal
import Idealize.ShloMosaic.Lib.ValueIdx

noncomputable section

namespace Cert.Lib.RowGather

open Idealize.ShloMosaic Idealize.ShloMosaic.ValueIdx

variable {α : Type}

/-- The table row that start index `p` names: the word read signed, clamped into `[0, N - 1]`. -/
def row {N B w : Nat} (hN : 0 < N) (idx : IVec (⟨2, ![B, 1]⟩ : Shape) w) (p : Fin B) : Fin N :=
  ⟨min (idx (ix2 p (0 : Fin 1))).toInt.toNat (N - 1), by omega⟩

/-! ## A table of rank 2 -/

/-- The dimension numbers of a row gather from `[N, C]` at `[B, 1]` into `[B, C]`. -/
abbrev rowDims2 (N B C : Nat)
    (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- Entry `(p, q)` of the gathered rows is entry `q` of the table's row `row idx p`. -/
theorem gather_rows2_apply {N B C w : Nat} (hN : 0 < N)
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (p : Fin B) (q : Fin C) :
    Host.gather (rowDims2 N B C wf) x idx (ix2 p q) = x (ix2 (row hN idx p) q) := by
  unfold Host.gather
  congr 1
  funext a
  refine Fin.ext ?_
  match a with
  | ⟨0, _⟩ =>
    show (rowDims2 N B C wf).start (ix2 p q) idx 0 + (rowDims2 N B C wf).batchCoord (ix2 p q) 0
      + (rowDims2 N B C wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims2 N B C wf).startIndexMap from List.mem_singleton.mpr rfl)]
    have hsi : (rowDims2 N B C wf).siIdx (ix2 p q) ⟨List.idxOf (0 : Fin 2) (rowDims2 N B C wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowDims2 N B C wf).start (ix2 p q) idx 1 + (rowDims2 N B C wf).batchCoord (ix2 p q) 1
      + (rowDims2 N B C wf).offCoord (ix2 p q) 1 = q.val
    rw [GatherDims.batchCoord_eq_zero _ _ _ List.not_mem_nil]
    unfold GatherDims.start
    rw [dif_neg (show ¬ (1 : Fin 2) ∈ (rowDims2 N B C wf).startIndexMap from
      fun h => absurd (List.mem_singleton.mp h) (show ¬ ((1 : Fin 2) = 0) by decide))]
    unfold GatherDims.offCoord
    rw [dif_pos (show (1 : Fin 2) ∈ (rowDims2 N B C wf).sKept from (GatherDims.mem_sKept _ _).mpr
      ⟨fun h => absurd (List.mem_singleton.mp h) (show ¬ ((1 : Fin 2) = 0) by decide), List.not_mem_nil⟩)]
    simp only [Nat.zero_add, Nat.add_zero]
    rfl

/-! ## A table of rank 3 -/

/-- The dimension numbers of a row gather from `[N, C, D]` at `[B, 1]` into `[B, C, D]`. -/
abbrev rowDims3 (N B C D : Nat)
    (wf : GatherDims.WF ⟨3, ![N, C, D]⟩ ⟨2, ![B, 1]⟩ ⟨3, ![B, C, D]⟩ [1, 2] [0] [] [0] [] 1 ![1, C, D]) :
    GatherDims ⟨3, ![N, C, D]⟩ ⟨2, ![B, 1]⟩ ⟨3, ![B, C, D]⟩ where
  offsetDims := [1, 2]
  collapsedSliceDims := [0]
  operandBatchingDims := []
  startIndicesBatchingDims := []
  startIndexMap := [0]
  indexVectorDim := 1
  sliceSizes := ![1, C, D]
  wf := wf

/-- Entry `(p, q, r)` of the gathered rows is entry `(q, r)` of the table's row `row idx p`. -/
theorem gather_rows3_apply {N B C D w : Nat} (hN : 0 < N)
    (wf : GatherDims.WF ⟨3, ![N, C, D]⟩ ⟨2, ![B, 1]⟩ ⟨3, ![B, C, D]⟩ [1, 2] [0] [] [0] [] 1 ![1, C, D])
    (x : (⟨3, ![N, C, D]⟩ : Shape).Idx → α) (idx : IVec ⟨2, ![B, 1]⟩ w) (p : Fin B) (q : Fin C) (r : Fin D) :
    Host.gather (rowDims3 N B C D wf) x idx (ix3 p q r) = x (ix3 (row hN idx p) q r) := by
  unfold Host.gather
  congr 1
  funext a
  refine Fin.ext ?_
  match a with
  | ⟨0, _⟩ =>
    show (rowDims3 N B C D wf).start (ix3 p q r) idx 0 + (rowDims3 N B C D wf).batchCoord (ix3 p q r) 0
      + (rowDims3 N B C D wf).offCoord (ix3 p q r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowDims3 N B C D wf).startIndexMap from List.mem_singleton.mpr rfl)]
    have hsi : (rowDims3 N B C D wf).siIdx (ix3 p q r) ⟨List.idxOf (0 : Fin 3) (rowDims3 N B C D wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowDims3 N B C D wf).start (ix3 p q r) idx 1 + (rowDims3 N B C D wf).batchCoord (ix3 p q r) 1
      + (rowDims3 N B C D wf).offCoord (ix3 p q r) 1 = q.val
    rw [GatherDims.batchCoord_eq_zero _ _ _ List.not_mem_nil]
    unfold GatherDims.start
    rw [dif_neg (show ¬ (1 : Fin 3) ∈ (rowDims3 N B C D wf).startIndexMap from
      fun h => absurd (List.mem_singleton.mp h) (show ¬ ((1 : Fin 3) = 0) by decide))]
    unfold GatherDims.offCoord
    rw [dif_pos (show (1 : Fin 3) ∈ (rowDims3 N B C D wf).sKept from (GatherDims.mem_sKept _ _).mpr
      ⟨fun h => absurd (List.mem_singleton.mp h) (show ¬ ((1 : Fin 3) = 0) by decide), List.not_mem_nil⟩)]
    simp only [Nat.zero_add, Nat.add_zero]
    rfl
  | ⟨2, _⟩ =>
    show (rowDims3 N B C D wf).start (ix3 p q r) idx 2 + (rowDims3 N B C D wf).batchCoord (ix3 p q r) 2
      + (rowDims3 N B C D wf).offCoord (ix3 p q r) 2 = r.val
    rw [GatherDims.batchCoord_eq_zero _ _ _ List.not_mem_nil]
    unfold GatherDims.start
    rw [dif_neg (show ¬ (2 : Fin 3) ∈ (rowDims3 N B C D wf).startIndexMap from
      fun h => absurd (List.mem_singleton.mp h) (show ¬ ((2 : Fin 3) = 0) by decide))]
    unfold GatherDims.offCoord
    rw [dif_pos (show (2 : Fin 3) ∈ (rowDims3 N B C D wf).sKept from (GatherDims.mem_sKept _ _).mpr
      ⟨fun h => absurd (List.mem_singleton.mp h) (show ¬ ((2 : Fin 3) = 0) by decide), List.not_mem_nil⟩)]
    simp only [Nat.zero_add, Nat.add_zero]
    rfl

end Cert.Lib.RowGather

end
-- ==== Proof.LibVecGather.lean ====
/-
  A gather of single entries of a vector, read at an index.

  What `x[idx]` lowers to for a vector `x` of `N` entries and a vector of `B` positions held as a column `[B, 1]`:
  a gather with the vector's one axis collapsed, slices of size one. Result entry `p` is the vector's entry at the
  `p`-th start index read as a signed integer and clamped into `[0, N - 1]` (a gather clamps every start index so that
  the slice fits) — the same position `Cert.Lib.RowGather.row` names for a gather of whole rows of a table with `N`
  rows at the same start indices, so a per-row quantity computed before the gather and the same quantity computed from
  the gathered rows are read at one and the same row. For entries of any type. The dimension record is given as a
  structure literal over the extents, so a program's printed record of the same fields is one of them by unfolding.
-/
import Idealize.ShloMosaic.PureOps.Ideal
import Idealize.ShloMosaic.Lib.ValueIdx
import proofs.«159589_j46420006535686_2_alg».proof.Proof.LibRowGather

noncomputable section

namespace Cert.Lib.VecGather

open Idealize.ShloMosaic Idealize.ShloMosaic.ValueIdx

variable {α : Type}

/-- The dimension numbers of an entry gather from `[N]` at `[B, 1]` into `[B]`. -/
abbrev vecDims (N B : Nat)
    (wf : GatherDims.WF ⟨1, ![N]⟩ ⟨2, ![B, 1]⟩ ⟨1, ![B]⟩ [] [0] [] [0] [] 1 ![1]) :
    GatherDims ⟨1, ![N]⟩ ⟨2, ![B, 1]⟩ ⟨1, ![B]⟩ where
  offsetDims := []
  collapsedSliceDims := [0]
  operandBatchingDims := []
  startIndicesBatchingDims := []
  startIndexMap := [0]
  indexVectorDim := 1
  sliceSizes := ![1]
  wf := wf

/-- Entry `p` of the gathered vector is the vector's entry at position `row idx p`. -/
theorem gather_vec_apply {N B w : Nat} (hN : 0 < N)
    (wf : GatherDims.WF ⟨1, ![N]⟩ ⟨2, ![B, 1]⟩ ⟨1, ![B]⟩ [] [0] [] [0] [] 1 ![1])
    (x : (⟨1, ![N]⟩ : Shape).Idx → α) (idx : IVec ⟨2, ![B, 1]⟩ w) (p : Fin B) :
    Host.gather (vecDims N B wf) x idx (ix1 p) = x (ix1 (Cert.Lib.RowGather.row hN idx p)) := by
  unfold Host.gather
  congr 1
  funext a
  obtain rfl : a = 0 := Subsingleton.elim _ _
  refine Fin.ext ?_
  show (vecDims N B wf).start (ix1 p) idx 0 + (vecDims N B wf).batchCoord (ix1 p) 0
    + (vecDims N B wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N B wf).startIndexMap from List.mem_singleton.mpr rfl)]
  have hsi : (vecDims N B wf).siIdx (ix1 p) ⟨List.idxOf (0 : Fin 1) (vecDims N B wf).startIndexMap,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

end Cert.Lib.VecGather

end
-- ==== Proof.KSums.lean ====
/-
  The kernel program's two per-centre sums, read at a centre, at the ideal instance.

  `summed` adds the rows of `payload` up by owner, so its entry `(c, q)` is the sum, over the edges `e` whose
  owner word read as a signed integer is `c`, of `payload (e, q)`; column 0 of `payload` is the per-edge quantity `em` and column 1
  the mask `mk` as a number. The slices and the reshape only rename indices (`c < 50000` stays a row of the `50001`). So

      lossSum c = Σ_{e : owner e = c} em e        cnt c = Σ_{e : owner e = c} mk e

  For the program's own `em`, the masked error: the gather of single entries reads the vector of per-node errors at
  the clamped start index, and that vector is column 0 of the region's array (`errEdge_apply`).
-/
import proofs.«159589_j46420006535686_2_alg».proof.Proof.KTail
import proofs.«159589_j46420006535686_2_alg».proof.Proof.LibScatterAddRead
import proofs.«159589_j46420006535686_2_alg».proof.Proof.LibPairColumns
import proofs.«159589_j46420006535686_2_alg».proof.Proof.LibKeepdims
import proofs.«159589_j46420006535686_2_alg».proof.Proof.LibVecGather
import Idealize.ShloMosaic.Lib.ValueLayout
import Idealize.ShloMosaic.Lib.Pipeline.Value
import Idealize.ShloMosaic.PureOps.Ideal.Laws

noncomputable section

namespace Cert.KernelIdeal.Tail

open Cert.KernelIdeal Cert.KernelIdeal.Gen Idealize.ShloMosaic Idealize.ShloMosaic.ValueIdx

/-- A column `[n, 1]` reshaped to a vector `[n]` reads, at `c`, the column at `(c, 0)`. -/
theorem shapeCast_col_vec_apply {α : Type} {n : ℕ} (x : (⟨2, ![n, 1]⟩ : Shape).Idx → α)
    (h : (⟨2, ![n, 1]⟩ : Shape).ShapeCasts ⟨1, ![n]⟩) (c : Fin n) :
    shapeCast (⟨1, ![n]⟩ : Shape) x h (ix1 c) = x (ix2 c (0 : Fin 1)) :=
  shapeCast_apply x h (ix1 c) (ix2 c (0 : Fin 1)) (by
    rw [Shape.rowMajor_val_one, Shape.rowMajor_val_two]
    show c.val * 1 + 0 = c.val
    omega)

/-- A scalar broadcast to any shape reads the scalar everywhere. -/
theorem splat_apply {α : Type} {t : Shape} (h : (⟨0, ![]⟩ : Shape).BroadcastsInDim t ![]) (x : (⟨0, ![]⟩ : Shape).Idx → α)
    (j : t.Idx) : broadcastInDim t ![] h x j = x ix0 :=
  broadcastInDim_apply _ h x j ix0 (fun a => a.elim0)

/-- The zero splat reads zero. -/
theorem zeros_apply {t : Shape} (h : (⟨0, ![]⟩ : Shape).BroadcastsInDim t ![]) (j : t.Idx) :
    broadcastInDim t ![] h (constant (F := Ideal) S_ .f32 0x00000000#32) j = (0 : EReal) :=
  (splat_apply h _ j).trans Ideal.ofBits_zero_f32

/-- Column 0 of the payload at edge `e` is the per-edge quantity at `e`. -/
theorem payload_col0 (em : (⟨S1600000, .f32⟩ : BufTy).Contents (Elt Ideal)) (mk : (⟨S1600000, .i1⟩ : BufTy).Contents (Elt Ideal)) (e : Fin 1600000) :
    payload (F := Ideal) em mk (ix2 e (0 : Fin 2)) = em (ix1 e) :=
  (Cert.Lib.PairColumns.pair_col0 _ _ concatenates_S1600000x1_S1600000x1_S1600000x2_d1 e).trans
    (Cert.Lib.Keepdims.broadcastInDim_column_apply _ bcast_S1600000_S1600000x1_0 (ix2 e (0 : Fin 1)))

/-- Column 1 of the payload at edge `e` is the mask of `e` as a number. -/
theorem payload_col1 (em : (⟨S1600000, .f32⟩ : BufTy).Contents (Elt Ideal)) (mk : (⟨S1600000, .i1⟩ : BufTy).Contents (Elt Ideal)) (e : Fin 1600000) :
    payload (F := Ideal) em mk (ix2 e (1 : Fin 2)) = uitofp (F := Ideal) .f32 mk (ix1 e) :=
  (Cert.Lib.PairColumns.pair_col1 _ _ concatenates_S1600000x1_S1600000x1_S1600000x2_d1 e).trans
    (Cert.Lib.Keepdims.broadcastInDim_column_apply _ bcast_S1600000_S1600000x1_0 (ix2 e (0 : Fin 1)))

/-- Entry `(c, q)` of the kept rows: the payload's column `q` summed over the edges owned by centre `c`. -/
theorem kept_apply (em : (⟨S1600000, .f32⟩ : BufTy).Contents (Elt Ideal)) (mk : (⟨S1600000, .i1⟩ : BufTy).Contents (Elt Ideal)) (ow : (⟨S1600000, .i32⟩ : BufTy).Contents (Elt Ideal))
    (c : Fin 50000) (q : Fin 2) :
    kept (F := Ideal) em mk ow (ix2 c q)
      = ∑ e : Fin 1600000, if (ow (ix1 e)).toInt = (c.val : ℤ) then payload (F := Ideal) em mk (ix2 e q) else 0 := by
  unfold kept
  refine (slice2_axis0_apply 0 _ slices_S50001x2_S50000x2_0_0 c q (⟨c.val, by omega⟩ : Fin 50001) (Nat.zero_add _).symm).trans ?_
  unfold summed
  refine (Cert.Lib.ScatterAddRead.scatterAdd_two_apply scatter_S50001x2_S1600000x1_S1600000x2_1_0_0_1 rfl rfl rfl rfl _ _ _
    (⟨c.val, by omega⟩ : Fin 50001) q).trans ?_
  rw [zeros_apply, zero_add]
  refine Finset.sum_congr rfl fun e _ => ?_
  rw [Cert.Lib.Keepdims.broadcastInDim_column_apply _ bcast_S1600000_S1600000x1_0 (ix2 e (0 : Fin 1))]

/-- The summed errors of centre `c`. -/
theorem lossSum_apply (em : (⟨S1600000, .f32⟩ : BufTy).Contents (Elt Ideal)) (mk : (⟨S1600000, .i1⟩ : BufTy).Contents (Elt Ideal)) (ow : (⟨S1600000, .i32⟩ : BufTy).Contents (Elt Ideal))
    (c : Fin 50000) :
    lossSum (F := Ideal) em mk ow (ix1 c)
      = ∑ e : Fin 1600000, if (ow (ix1 e)).toInt = (c.val : ℤ) then em (ix1 e) else 0 := by
  unfold lossSum
  refine (shapeCast_col_vec_apply _ shapeCasts_S50000x1_S50000 c).trans ?_
  refine (slice2_axis1_apply 0 _ slices_S50000x2_S50000x1_0_0 c (0 : Fin 1) (0 : Fin 2) rfl).trans ?_
  refine (kept_apply em mk ow c 0).trans (Finset.sum_congr rfl fun e _ => ?_)
  rw [payload_col0]

/-- The number of edges of centre `c`. -/
theorem cnt_apply (em : (⟨S1600000, .f32⟩ : BufTy).Contents (Elt Ideal)) (mk : (⟨S1600000, .i1⟩ : BufTy).Contents (Elt Ideal)) (ow : (⟨S1600000, .i32⟩ : BufTy).Contents (Elt Ideal))
    (c : Fin 50000) :
    cnt (F := Ideal) em mk ow (ix1 c)
      = ∑ e : Fin 1600000, if (ow (ix1 e)).toInt = (c.val : ℤ) then uitofp (F := Ideal) .f32 mk (ix1 e) else 0 := by
  unfold cnt
  refine (shapeCast_col_vec_apply _ shapeCasts_S50000x1_S50000 c).trans ?_
  refine (slice2_axis1_apply 1 _ slices_S50000x2_S50000x1_0_1 c (0 : Fin 1) (1 : Fin 2) rfl).trans ?_
  refine (kept_apply em mk ow c 1).trans (Finset.sum_congr rfl fun e _ => ?_)
  rw [payload_col1]

/-- The destination node of edge `e`: the gather's start index read signed and clamped to a node. -/
def dst (x4 : (⟨S2x1600000, .i32⟩ : BufTy).Contents (Elt Ideal)) (e : Fin 1600000) : Fin 100000 :=
  Cert.Lib.RowGather.row (by decide : 0 < 100000) (nodeCol (F := Ideal) (dstVec (F := Ideal) x4)) e

/-- The per-node error picked at edge `e` is column 0 of the region's array at row `dst e`. -/
theorem errEdge_apply (e0 : (⟨S100000x1, .f32⟩ : BufTy).Contents (Elt Ideal)) (x4 : (⟨S2x1600000, .i32⟩ : BufTy).Contents (Elt Ideal)) (e : Fin 1600000) :
    errEdge (F := Ideal) e0 x4 (ix1 e) = e0 (ix2 (dst x4 e) (0 : Fin 1)) := by
  unfold errEdge
  refine (Cert.Lib.VecGather.gather_vec_apply (by decide : 0 < 100000) gather_S100000_S1600000x1_S1600000_n_0_n_n_0_1_1_wf
    (errNode (F := Ideal) e0) (nodeCol (F := Ideal) (dstVec (F := Ideal) x4)) e).trans ?_
  unfold errNode
  exact shapeCast_col_vec_apply e0 shapeCasts_S100000x1_S100000 (dst x4 e)

end Cert.KernelIdeal.Tail

end
-- ==== Proof.RSums.lean ====
/-
  The reference's two per-centre sums, read at a centre, at the ideal instance.

  The reference adds the per-edge masked errors up by owner, and, separately, the mask as a number; each accumulating
  scatter's entry `c` is the zero it starts from plus the sum, over the edges whose owner word read as a signed integer
  is `c`, of that edge's update, and the slice that drops the last slot keeps entry `c < 50000` where it is:

      lossSum c = Σ_{e : owner e = c} errm e        cnt c = Σ_{e : owner e = c} maskf e.
-/
import proofs.«159589_j46420006535686_2_alg».proof.Proof.RefRead
import proofs.«159589_j46420006535686_2_alg».proof.Proof.LibScatterAddRead
import Idealize.ShloMosaic.PureOps.Ideal.Laws

noncomputable section

namespace Cert.ReferenceIdeal.Sums

open Cert.ReferenceIdeal Cert.ReferenceIdeal.Gen Cert.ReferenceIdeal.ReadP Idealize.ShloMosaic Idealize.ShloMosaic.ValueIdx

/-- The column of owners at `(e, 0)` is the owner of edge `e`. -/
theorem ownerCol_apply (x4 : (⟨S2x1600000, .i32⟩ : BufTy).Contents (Elt Ideal)) (x5 : (⟨S50000, .i32⟩ : BufTy).Contents (Elt Ideal)) (e : Fin 1600000) :
    val_main_v47 (F := Ideal) x4 x5 (ix2 e (0 : Fin 1)) = val_main_v19 (F := Ideal) x4 x5 (ix1 e) := by
  rw [val_main_v47_apply]
  exact congrArg _ (funext fun a => Fin.ext (by match a with | ⟨0, _⟩ => rfl))

/-- The second scatter reads the same column of owners. -/
theorem ownerCol_eq (x4 : (⟨S2x1600000, .i32⟩ : BufTy).Contents (Elt Ideal)) (x5 : (⟨S50000, .i32⟩ : BufTy).Contents (Elt Ideal)) :
    val_main_v52 (F := Ideal) x4 x5 = val_main_v47 (F := Ideal) x4 x5 := rfl

/-- The summed errors of centre `c`. -/
theorem lossSum_apply (x0 : (⟨S100000x128, .f32⟩ : BufTy).Contents (Elt Ideal)) (x1 : (⟨S128x3, .f32⟩ : BufTy).Contents (Elt Ideal)) (x2 : (⟨S3, .f32⟩ : BufTy).Contents (Elt Ideal))
    (x3 : (⟨S100000x3, .f32⟩ : BufTy).Contents (Elt Ideal)) (x4 : (⟨S2x1600000, .i32⟩ : BufTy).Contents (Elt Ideal)) (x5 : (⟨S50000, .i32⟩ : BufTy).Contents (Elt Ideal)) (c : Fin 50000) :
    val_main_v49 (F := Ideal) x0 x1 x2 x3 x4 x5 (ix1 c)
      = ∑ e : Fin 1600000, if (val_main_v19 (F := Ideal) x4 x5 (ix1 e)).toInt = (c.val : ℤ)
          then val_main_v45 (F := Ideal) x0 x1 x2 x3 x4 x5 (ix1 e) else 0 := by
  rw [val_main_v49_apply]
  have hi : idx_main_v49 (ix1 c) = ix1 (⟨c.val, by omega⟩ : Fin 50001) :=
    funext fun a => Fin.ext (by match a with | ⟨0, _⟩ => rfl)
  rw [hi]
  unfold val_main_v48
  refine (Cert.Lib.ScatterAddRead.scatterAdd_one_apply scatter_S50001_S1600000x1_S1600000_n_0_0_1 rfl rfl rfl rfl _ _ _
    (⟨c.val, by omega⟩ : Fin 50001)).trans ?_
  rw [val_main_v46_apply, val_main_cst_11_apply, Ideal.ofBits_def, Ideal.ofBits_zero_f32, zero_add]
  refine Finset.sum_congr rfl fun e _ => ?_
  rw [ownerCol_apply]

/-- The number of edges of centre `c`. -/
theorem cnt_apply (x4 : (⟨S2x1600000, .i32⟩ : BufTy).Contents (Elt Ideal)) (x5 : (⟨S50000, .i32⟩ : BufTy).Contents (Elt Ideal)) (c : Fin 50000) :
    val_main_v54 (F := Ideal) x4 x5 (ix1 c)
      = ∑ e : Fin 1600000, if (val_main_v19 (F := Ideal) x4 x5 (ix1 e)).toInt = (c.val : ℤ)
          then val_main_v50 (F := Ideal) x4 x5 (ix1 e) else 0 := by
  rw [val_main_v54_apply]
  have hi : idx_main_v54 (ix1 c) = ix1 (⟨c.val, by omega⟩ : Fin 50001) :=
    funext fun a => Fin.ext (by match a with | ⟨0, _⟩ => rfl)
  rw [hi]
  unfold val_main_v53
  refine (Cert.Lib.ScatterAddRead.scatterAdd_one_apply scatter_S50001_S1600000x1_S1600000_n_0_0_1 rfl rfl rfl rfl _ _ _
    (⟨c.val, by omega⟩ : Fin 50001)).trans ?_
  rw [val_main_v51_apply, val_main_cst_12_apply, Ideal.ofBits_def, Ideal.ofBits_zero_f32, zero_add, ownerCol_eq]
  refine Finset.sum_congr rfl fun e _ => ?_
  rw [ownerCol_apply]

end Cert.ReferenceIdeal.Sums

end
-- ==== Proof.RefErr.lean ====
/-
  The reference's per-edge error, read at an edge.

  The reference gathers, for every edge `e`, row `dst e` of the feature table `H` and of the target table
  `T` (`dst e` the edge's destination, the start index read signed and clamped into the table), multiplies the
  gathered feature rows by `W`, adds `b`, subtracts the gathered targets, squares, sums the three coordinates and
  divides by three. Read at edge `e`, every one of these steps touches row `dst e` only, so the per-edge error IS
  the per-node quantity `Cert.Spec.nodeErr` at node `dst e`:

      err[e] = nodeErr H W b T (dst e).
-/
import proofs.«159589_j46420006535686_2_alg».proof.Proof.RefRead
import proofs.«159589_j46420006535686_2_alg».proof.Proof.LibRowGather
import proofs.«159589_j46420006535686_2_alg».proof.Proof.Spec

noncomputable section

namespace Cert.ReferenceIdeal.EdgeErr

open Cert.ReferenceIdeal Cert.ReferenceIdeal.Gen Cert.ReferenceIdeal.ReadP Idealize.ShloMosaic Idealize.ShloMosaic.ValueIdx

/-- The table has a row to clamp into. -/
theorem rows_pos : 0 < 100000 := by decide

/-- The destination column is computed twice by the program (once for each gathered table), from the same
    words by the same operations. -/
theorem dstCol_eq (x4 : (⟨S2x1600000, .i32⟩ : BufTy).Contents (Elt Ideal)) :
    val_main_v38 (F := Ideal) x4 = val_main_v27 (F := Ideal) x4 := rfl

/-- The destination node of edge `e`: the start index of the row gathers, read signed and clamped to a row. -/
def dst (x4 : (⟨S2x1600000, .i32⟩ : BufTy).Contents (Elt Ideal)) (e : Fin 1600000) : Fin 100000 :=
  Cert.Lib.RowGather.row rows_pos (val_main_v27 (F := Ideal) x4) e

/-- The gathered feature rows at `(e, k)`: entry `k` of row `dst e` of `H`. -/
theorem featRows_apply (x0 : (⟨S100000x128, .f32⟩ : BufTy).Contents (Elt Ideal)) (x4 : (⟨S2x1600000, .i32⟩ : BufTy).Contents (Elt Ideal))
    (e : Fin 1600000) (k : Fin 128) :
    val_main_v28 (F := Ideal) x0 x4 (ix2 e k) = x0 (ix2 (dst x4 e) k) :=
  Cert.Lib.RowGather.gather_rows2_apply rows_pos gather_S100000x128_S1600000x1_S1600000x128_1_0_n_n_0_1_1128_wf x0
    (val_main_v27 (F := Ideal) x4) e k

/-- The gathered target rows at `(e, j)`: entry `j` of row `dst e` of `T`. -/
theorem targetRows_apply (x3 : (⟨S100000x3, .f32⟩ : BufTy).Contents (Elt Ideal)) (x4 : (⟨S2x1600000, .i32⟩ : BufTy).Contents (Elt Ideal))
    (e : Fin 1600000) (j : Fin 3) :
    val_main_v39 (F := Ideal) x3 x4 (ix2 e j) = x3 (ix2 (dst x4 e) j) := by
  unfold val_main_v39 dst
  rw [dstCol_eq]
  exact Cert.Lib.RowGather.gather_rows2_apply rows_pos gather_S100000x3_S1600000x1_S1600000x3_1_0_n_n_0_1_13_wf x3
    (val_main_v27 (F := Ideal) x4) e j

/-- One coordinate of the prediction error on edge `e` is that coordinate of the prediction error of node `dst e`. -/
theorem diff_apply (x0 : (⟨S100000x128, .f32⟩ : BufTy).Contents (Elt Ideal)) (x1 : (⟨S128x3, .f32⟩ : BufTy).Contents (Elt Ideal))
    (x2 : (⟨S3, .f32⟩ : BufTy).Contents (Elt Ideal)) (x3 : (⟨S100000x3, .f32⟩ : BufTy).Contents (Elt Ideal))
    (x4 : (⟨S2x1600000, .i32⟩ : BufTy).Contents (Elt Ideal)) (e : Fin 1600000) (j : Fin 3) :
    val_main_v40 (F := Ideal) x0 x1 x2 x3 x4 (ix2 e j) = Cert.Spec.diff x0 x1 x2 x3 (dst x4 e) j := by
  rw [val_main_v40_apply, val_main_v32_apply, val_main_v29_apply, val_main_v31_apply, val_main_v30_apply,
    targetRows_apply]
  unfold Cert.Spec.diff
  simp only [Ideal.addf_def, Ideal.subf_def]
  have hb : idx_main_v30 (idx_main_v31 (ix2 e j)) = ix1 j :=
    funext fun a => Fin.ext (by match a with | ⟨0, _⟩ => rfl)
  rw [hb]
  refine congrArg (fun s => s + x2 (ix1 j) - x3 (ix2 (dst x4 e) j)) (Finset.sum_congr rfl fun k _ => ?_)
  have hl : lidx_main_v29 (ix2 e j) k = ix2 e k :=
    funext fun a => Fin.ext (by match a with | ⟨0, _⟩ => rfl | ⟨1, _⟩ => rfl)
  have hr : ridx_main_v29 (ix2 e j) k = ix2 k j :=
    funext fun a => Fin.ext (by match a with | ⟨0, _⟩ => rfl | ⟨1, _⟩ => rfl)
  rw [hl, hr, featRows_apply]

/-- The per-edge error at edge `e` is the per-node error of node `dst e`. -/
theorem edgeErr_apply (x0 : (⟨S100000x128, .f32⟩ : BufTy).Contents (Elt Ideal)) (x1 : (⟨S128x3, .f32⟩ : BufTy).Contents (Elt Ideal))
    (x2 : (⟨S3, .f32⟩ : BufTy).Contents (Elt Ideal)) (x3 : (⟨S100000x3, .f32⟩ : BufTy).Contents (Elt Ideal))
    (x4 : (⟨S2x1600000, .i32⟩ : BufTy).Contents (Elt Ideal)) (e : Fin 1600000) :
    val_main_v44 (F := Ideal) x0 x1 x2 x3 x4 (ix1 e) = Cert.Spec.nodeErr x0 x1 x2 x3 (dst x4 e) := by
  rw [val_main_v44_apply, val_main_v42_apply, val_main_v43_apply, val_main_cst_9_apply, val_main_cst_apply]
  unfold Cert.Spec.nodeErr
  simp only [Ideal.hostDivf_def, Ideal.ofBits_def, Ideal.ofBits_zero_f32, zero_add]
  refine congrArg (fun s => Ideal.div s (Ideal.ofBits .f32 0x40400000#32)) (Finset.sum_congr rfl fun j _ => ?_)
  have hi : idx_main_v42 (ix1 e) j = ix2 e j :=
    funext fun a => Fin.ext (by match a with | ⟨0, _⟩ => rfl | ⟨1, _⟩ => rfl)
  rw [hi, val_main_v41_apply, diff_apply]
  rfl

end Cert.ReferenceIdeal.EdgeErr

end
-- ==== Proof.Bridge.lean ====
/-
  The two programs' results are one function of the argument arrays.

  Both programs end with the same mean over the centres of `lossSum / max cnt 1` (`meanLoss`), so it is enough
  that their `lossSum` and `cnt` vectors agree. Read at a centre `c`, each is a sum over the edges whose owner is
  `c` (the kernel program's two-column accumulating scatter read column by column, the reference's two
  one-column ones), the owners and the mask are computed by the same operations from the same integer arguments,
  and the summand of `lossSum` at an edge `e` whose source is a centre is, on the kernel's side, the per-node error
  the region left at row `dst e` of its array, and on the reference's side the per-edge error, which is the per-node
  error of node `dst e`: the same number. No law beyond the re-indexing of these sums is used, so nothing here asks
  the inputs to be finite.
-/
import proofs.«159589_j46420006535686_2_alg».proof.Proof.KSums
import proofs.«159589_j46420006535686_2_alg».proof.Proof.RSums
import proofs.«159589_j46420006535686_2_alg».proof.Proof.RefErr
import proofs.«159589_j46420006535686_2_alg».proof.Proof.Spec

noncomputable section

namespace Cert.Bridge

open Idealize.ShloMosaic Idealize.ShloMosaic.ValueIdx

/-! ## What the two programs compute alike: the same operations on the same integer arguments -/

/-- The owner of every edge's source. -/
theorem owners_eq (x4 : (⟨Cert.KernelIdeal.S2x1600000, .i32⟩ : BufTy).Contents (Elt Ideal)) (x5 : (⟨Cert.KernelIdeal.S50000, .i32⟩ : BufTy).Contents (Elt Ideal)) :
    Cert.KernelIdeal.Tail.owners (F := Ideal) x4 x5 = Cert.ReferenceIdeal.ReadP.val_main_v19 (F := Ideal) x4 x5 := rfl

/-- Whether the edge's source is a centre. -/
theorem mask_eq (x4 : (⟨Cert.KernelIdeal.S2x1600000, .i32⟩ : BufTy).Contents (Elt Ideal)) (x5 : (⟨Cert.KernelIdeal.S50000, .i32⟩ : BufTy).Contents (Elt Ideal)) :
    Cert.KernelIdeal.Tail.mask (F := Ideal) x4 x5 = Cert.ReferenceIdeal.ReadP.val_main_v21 (F := Ideal) x4 x5 := rfl

/-- The column of destinations the gathers start from. -/
theorem dstCol_eq (x4 : (⟨Cert.KernelIdeal.S2x1600000, .i32⟩ : BufTy).Contents (Elt Ideal)) :
    Cert.KernelIdeal.Tail.nodeCol (F := Ideal) (Cert.KernelIdeal.Tail.dstVec (F := Ideal) x4)
      = Cert.ReferenceIdeal.ReadP.val_main_v27 (F := Ideal) x4 := rfl

/-- The destination node of an edge. -/
theorem dst_eq (x4 : (⟨Cert.KernelIdeal.S2x1600000, .i32⟩ : BufTy).Contents (Elt Ideal)) (e : Fin 1600000) :
    Cert.KernelIdeal.Tail.dst x4 e = Cert.ReferenceIdeal.EdgeErr.dst x4 e := by
  unfold Cert.KernelIdeal.Tail.dst Cert.ReferenceIdeal.EdgeErr.dst
  rw [dstCol_eq]

/-! ## The masked error of an edge -/

/-- Where the region's array holds the per-node errors, the kernel program's masked error of edge `e` is the
    reference's: both are the per-node error of `dst e` where the edge's source is a centre, and zero elsewhere. -/
theorem errm_eq (x0 : (⟨Cert.KernelIdeal.S100000x128, .f32⟩ : BufTy).Contents (Elt Ideal)) (x1 : (⟨Cert.KernelIdeal.S128x3, .f32⟩ : BufTy).Contents (Elt Ideal)) (x2 : (⟨Cert.KernelIdeal.S3, .f32⟩ : BufTy).Contents (Elt Ideal))
    (x3 : (⟨Cert.KernelIdeal.S100000x3, .f32⟩ : BufTy).Contents (Elt Ideal)) (x4 : (⟨Cert.KernelIdeal.S2x1600000, .i32⟩ : BufTy).Contents (Elt Ideal)) (x5 : (⟨Cert.KernelIdeal.S50000, .i32⟩ : BufTy).Contents (Elt Ideal))
    (e0 : (⟨Cert.KernelIdeal.S100000x1, .f32⟩ : BufTy).Contents (Elt Ideal))
    (he0 : ∀ n : Fin 100000, e0 (ix2 n (0 : Fin 1)) = Cert.Spec.nodeErr x0 x1 x2 x3 n) (e : Fin 1600000) :
    Cert.KernelIdeal.Tail.errm (F := Ideal) e0 x4 x5 (ix1 e)
      = Cert.ReferenceIdeal.ReadP.val_main_v45 (F := Ideal) x0 x1 x2 x3 x4 x5 (ix1 e) := by
  rw [Cert.ReferenceIdeal.ReadP.val_main_v45_apply, Cert.ReferenceIdeal.EdgeErr.edgeErr_apply, ← dst_eq, ← he0,
    ← Cert.KernelIdeal.Tail.errEdge_apply e0 x4 e, ← mask_eq]
  rfl

/-! ## The two per-centre sums -/

theorem lossSum_eq (x0 : (⟨Cert.KernelIdeal.S100000x128, .f32⟩ : BufTy).Contents (Elt Ideal)) (x1 : (⟨Cert.KernelIdeal.S128x3, .f32⟩ : BufTy).Contents (Elt Ideal)) (x2 : (⟨Cert.KernelIdeal.S3, .f32⟩ : BufTy).Contents (Elt Ideal))
    (x3 : (⟨Cert.KernelIdeal.S100000x3, .f32⟩ : BufTy).Contents (Elt Ideal)) (x4 : (⟨Cert.KernelIdeal.S2x1600000, .i32⟩ : BufTy).Contents (Elt Ideal)) (x5 : (⟨Cert.KernelIdeal.S50000, .i32⟩ : BufTy).Contents (Elt Ideal))
    (e0 : (⟨Cert.KernelIdeal.S100000x1, .f32⟩ : BufTy).Contents (Elt Ideal))
    (he0 : ∀ n : Fin 100000, e0 (ix2 n (0 : Fin 1)) = Cert.Spec.nodeErr x0 x1 x2 x3 n) :
    Cert.KernelIdeal.Tail.lossSum (F := Ideal) (Cert.KernelIdeal.Tail.errm (F := Ideal) e0 x4 x5) (Cert.KernelIdeal.Tail.mask (F := Ideal) x4 x5)
        (Cert.KernelIdeal.Tail.owners (F := Ideal) x4 x5)
      = Cert.ReferenceIdeal.ReadP.val_main_v49 (F := Ideal) x0 x1 x2 x3 x4 x5 := by
  funext i
  obtain ⟨c, rfl⟩ : ∃ c : Fin 50000, i = ix1 c := ⟨i 0, eq_ix1 i⟩
  rw [Cert.KernelIdeal.Tail.lossSum_apply, Cert.ReferenceIdeal.Sums.lossSum_apply, owners_eq]
  refine Finset.sum_congr rfl fun e _ => ?_
  rw [errm_eq x0 x1 x2 x3 x4 x5 e0 he0 e]

theorem cnt_eq (e0 : (⟨Cert.KernelIdeal.S100000x1, .f32⟩ : BufTy).Contents (Elt Ideal)) (x4 : (⟨Cert.KernelIdeal.S2x1600000, .i32⟩ : BufTy).Contents (Elt Ideal))
    (x5 : (⟨Cert.KernelIdeal.S50000, .i32⟩ : BufTy).Contents (Elt Ideal)) :
    Cert.KernelIdeal.Tail.cnt (F := Ideal) (Cert.KernelIdeal.Tail.errm (F := Ideal) e0 x4 x5) (Cert.KernelIdeal.Tail.mask (F := Ideal) x4 x5)
        (Cert.KernelIdeal.Tail.owners (F := Ideal) x4 x5)
      = Cert.ReferenceIdeal.ReadP.val_main_v54 (F := Ideal) x4 x5 := by
  funext i
  obtain ⟨c, rfl⟩ : ∃ c : Fin 50000, i = ix1 c := ⟨i 0, eq_ix1 i⟩
  rw [Cert.KernelIdeal.Tail.cnt_apply, Cert.ReferenceIdeal.Sums.cnt_apply, owners_eq, mask_eq]
  rfl

/-! ## The results -/

/-- The reference's result is the shared mean of its two per-centre sums. -/
theorem ref_result (x0 : (⟨Cert.KernelIdeal.S100000x128, .f32⟩ : BufTy).Contents (Elt Ideal)) (x1 : (⟨Cert.KernelIdeal.S128x3, .f32⟩ : BufTy).Contents (Elt Ideal)) (x2 : (⟨Cert.KernelIdeal.S3, .f32⟩ : BufTy).Contents (Elt Ideal))
    (x3 : (⟨Cert.KernelIdeal.S100000x3, .f32⟩ : BufTy).Contents (Elt Ideal)) (x4 : (⟨Cert.KernelIdeal.S2x1600000, .i32⟩ : BufTy).Contents (Elt Ideal)) (x5 : (⟨Cert.KernelIdeal.S50000, .i32⟩ : BufTy).Contents (Elt Ideal)) :
    Cert.ReferenceIdeal.ReadP.val_main_v59 (F := Ideal) x0 x1 x2 x3 x4 x5
      = Cert.KernelIdeal.Tail.meanLoss (F := Ideal) (Cert.ReferenceIdeal.ReadP.val_main_v49 (F := Ideal) x0 x1 x2 x3 x4 x5)
          (Cert.ReferenceIdeal.ReadP.val_main_v54 (F := Ideal) x4 x5) := rfl

/-- The kernel program's result, from a region array holding the per-node errors, is the reference's result. -/
theorem result_eq (x0 : (⟨Cert.KernelIdeal.S100000x128, .f32⟩ : BufTy).Contents (Elt Ideal)) (x1 : (⟨Cert.KernelIdeal.S128x3, .f32⟩ : BufTy).Contents (Elt Ideal)) (x2 : (⟨Cert.KernelIdeal.S3, .f32⟩ : BufTy).Contents (Elt Ideal))
    (x3 : (⟨Cert.KernelIdeal.S100000x3, .f32⟩ : BufTy).Contents (Elt Ideal)) (x4 : (⟨Cert.KernelIdeal.S2x1600000, .i32⟩ : BufTy).Contents (Elt Ideal)) (x5 : (⟨Cert.KernelIdeal.S50000, .i32⟩ : BufTy).Contents (Elt Ideal))
    (e0 : (⟨Cert.KernelIdeal.S100000x1, .f32⟩ : BufTy).Contents (Elt Ideal))
    (he0 : ∀ n : Fin 100000, e0 (ix2 n (0 : Fin 1)) = Cert.Spec.nodeErr x0 x1 x2 x3 n) :
    Cert.KernelIdeal.Tail.result (F := Ideal) e0 x4 x5 = Cert.ReferenceIdeal.ReadP.val_main_v59 (F := Ideal) x0 x1 x2 x3 x4 x5 := by
  rw [ref_result]
  unfold Cert.KernelIdeal.Tail.result Cert.KernelIdeal.Tail.resultOf
  rw [lossSum_eq x0 x1 x2 x3 x4 x5 e0 he0, cnt_eq]

end Cert.Bridge

end
-- ==== Proof.lean ====
/-
  A graph auxiliary loss, once per node against once per edge.

  For every edge whose source is one of the 50000 centres, the loss is the mean squared error of a linear head
  applied to the features of the edge's DESTINATION against that node's target; the errors are averaged per centre
  (a centre without edges counts as zero) and the per-centre means are averaged over the centres.

    * The reference picks, for each of the 1.6 million edges, the destination's feature row and target row, and
      evaluates the head and the error per edge.
    * The kernel evaluates the same error once per node — a grid of 20 points, each taking 5000 rows of the feature
      and target arrays through a matrix product with the head (inputs narrowed to a shorter float format, which at
      the ideal values is the identity), the bias, the difference, the squares, their sum over the three coordinates
      and the division by three — and only then picks, per edge, the destination's error. The two per-edge
      quantities it accumulates per centre (the masked error, and the mask as a number) it adds up with ONE
      two-column accumulating scatter where the reference uses two one-column ones.

  At the ideal values (floats are extended reals, every operation exact) the two results are equal, element by
  element, for ALL inputs: picking a row commutes with a computation done row by row (`Cert.Spec.nodeErr`; the
  kernel side in NodeBlock / NodeArray, the reference side in RefErr), a two-column accumulating scatter read at one
  column is the one-column scatter of that column (LibScatterAddRead, KSums, RSums), and everything that follows is
  the same function of the two per-centre sums on both sides (Bridge). No algebraic law that could fail at an
  infinity is used, so the precondition (finite float inputs) is never opened. The ideal pass rewrote nothing, so
  the kernel's idealization is its own text read at the ideal values.
-/
import proofs.«159589_j46420006535686_2_alg».proof.Defs
import proofs.«159589_j46420006535686_2_alg».proof.Proof.Gen.Kernel
import proofs.«159589_j46420006535686_2_alg».proof.Proof.Gen.Kernel.Skeleton
import proofs.«159589_j46420006535686_2_alg».proof.Proof.Gen.Kernel.Launch
import proofs.«159589_j46420006535686_2_alg».proof.Proof.Gen.Kernel.Points
import proofs.«159589_j46420006535686_2_alg».proof.Proof.Gen.Kernel.Frame
import proofs.«159589_j46420006535686_2_alg».proof.Proof.Gen.KernelIdeal
import proofs.«159589_j46420006535686_2_alg».proof.Proof.Gen.KernelIdeal.Skeleton
import proofs.«159589_j46420006535686_2_alg».proof.Proof.Gen.KernelIdeal.Launch
import proofs.«159589_j46420006535686_2_alg».proof.Proof.Gen.KernelIdeal.Points
import proofs.«159589_j46420006535686_2_alg».proof.Proof.Gen.KernelIdeal.Frame
import proofs.«159589_j46420006535686_2_alg».proof.Proof.Gen.ReferenceIdeal
import proofs.«159589_j46420006535686_2_alg».proof.Proof.Gen.Pre_finite_inputs
import proofs.«159589_j46420006535686_2_alg».proof.Proof.RefRunH
import proofs.«159589_j46420006535686_2_alg».proof.Proof.KTail
import proofs.«159589_j46420006535686_2_alg».proof.Proof.NodeArray
import proofs.«159589_j46420006535686_2_alg».proof.Proof.Bridge
import Idealize.ShloMosaic.Adequacy
import Idealize.ShloMosaic.Init

noncomputable section

namespace Cert.Proof

open Idealize.ShloMosaic Idealize.ShloMosaic.TcCoe Idealize.SL.Sem

/-! ## The three frames and the idealization -/

theorem frame_kernel : Cert.frame_Kernel := fun m ρ _ => Cert.Kernel.Gen.frame m ρ

theorem frame_kernelIdeal : Cert.frame_KernelIdeal := fun m ρ _ => Cert.KernelIdeal.Gen.frame m ρ

/-- The reference launches no kernel: its frame is its run with the result dropped. -/
theorem frame_referenceIdeal : Cert.frame_ReferenceIdeal := fun m ρ _ =>
  (θ_run Cert.ReferenceIdeal.defs _ _).mono (fun _ h c => (h c).2) (Cert.ReferenceIdeal.RunH.run (F := Ideal) m ρ)

/-- The ideal pass rewrote no operation. -/
theorem preserves : Cert.preserves_Kernel_KernelIdeal := trivial

/-! ## The kernel program's run, with its result named -/

section KernelRun

open Cert.KernelIdeal Cert.KernelIdeal.Gen

/-- Every weakly fair execution of the idealized kernel program terminates with its result buffer at the shared
    mean of the two per-centre sums computed from the region's output array, and its arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v48)
          = Tail.result (F := Ideal) ((dats (F := Ideal) m 0 c).arrAt 4 cfg0.N) (m ((c.tc : Thread nD τ).loc main_arg4))
              (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v48 (Pipeline.mem_restRefs_of main_v48 (by decide) (by decide))).trans (Tail.result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main (F := Ideal) m ρ)

end KernelRun

/-! ## The two results are equal -/

/-- From memories that agree on the arguments both idealized programs run, and end with the same result: the
    kernel program's is the shared mean of its per-centre sums, whose region array holds the per-node errors
    (`NodeValue.final_apply`), and that is the reference's result (`Bridge.result_eq`). -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.RunH.run (F := Ideal) m' ρ')
  rw [(hagree c).1, (hagree c).2.1, (hagree c).2.2.1, (hagree c).2.2.2.1,
    (hagree c).2.2.2.2.1, (hagree c).2.2.2.2.2]
  exact (Cert.Bridge.result_eq _ _ _ _ _ _ _ (fun n => Cert.KernelIdeal.NodeValue.final_apply m c n)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
